-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S16384x2048 : Shape := ⟨2, ![16384, 2048]⟩
abbrev S2048x8192 : Shape := ⟨2, ![2048, 8192]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S2x4096x2048 .f32) (main_arg1 : FVec F S16384x2048 .f32) (main_arg2 : FVec F S2048x8192 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S2x4096x2048 : Shape := ⟨3, ![2, 4096, 2048]⟩
abbrev S16384x2048 : Shape := ⟨2, ![16384, 2048]⟩
abbrev S2048x8192 : Shape := ⟨2, ![2048, 8192]⟩
abbrev S8192x2048 : Shape := ⟨2, ![8192, 2048]⟩
abbrev S256x2048 : Shape := ⟨2, ![256, 2048]⟩
abbrev S1024x2048 : Shape := ⟨2, ![1024, 2048]⟩
abbrev S2048x1024 : Shape := ⟨2, ![2048, 1024]⟩
abbrev S256x1024 : Shape := ⟨2, ![256, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S16384x2048, .f32⟩
  | .hbm, ⟨2, _⟩ => ⟨S2048x8192, .f32⟩
  | .hbm, ⟨3, _⟩ => ⟨S8192x2048, .f32⟩
  | .hbm, ⟨4, _⟩ => ⟨S8192x2048, .bf16⟩
  | .hbm, ⟨5, _⟩ => ⟨S16384x2048, .bf16⟩
  | .hbm, ⟨6, _⟩ => ⟨S2048x8192, .bf16⟩
  | .hbm, ⟨7, _⟩ => ⟨S8192x2048, .f32⟩
  | .hbm, ⟨8, _⟩ => ⟨S2x4096x2048, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x4096x2048_S8192x2048 : S2x4096x2048.ShapeCasts S8192x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x2048_S2x4096x2048 : S8192x2048.ShapeCasts S2x4096x2048
  dot_S256x2048_S1024x2048_S256x1024_1_1_0_0_n_n_wf : DotDims.WF S256x2048 S1024x2048 S256x1024 [1] [1] [0] [0] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .bf16 = 32 ∨ (Rect.block (s := S16384x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .bf16 = 32 ∨ (Rect.block (s := S16384x2048) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x2048 : Shape := ⟨3, ![2, 4096, 2048]⟩
abbrev S16384x2048 : Shape := ⟨2, ![16384, 2048]⟩
abbrev S2048x8192 : Shape := ⟨2, ![2048, 8192]⟩
abbrev S2x4096x16384 : Shape := ⟨3, ![2, 4096, 16384]⟩
abbrev S2x4096x8192 : Shape := ⟨3, ![2, 4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S16384x2048, .f32⟩
  | .hbm, ⟨2, _⟩ => ⟨S2048x8192, .f32⟩
  | .hbm, ⟨3, _⟩ => ⟨S2x4096x16384, .f32⟩
  | .hbm, ⟨4, _⟩ => ⟨S2x4096x8192, .f32⟩
  | .hbm, ⟨5, _⟩ => ⟨S2x4096x8192, .f32⟩
  | .hbm, ⟨6, _⟩ => ⟨S2x4096x8192, .f32⟩
  | .hbm, ⟨7, _⟩ => ⟨S2x4096x8192, .f32⟩
  | .hbm, ⟨8, _⟩ => ⟨S_, .f32⟩
  | .hbm, ⟨9, _⟩ => ⟨S2x4096x8192, .f32⟩
  | .hbm, ⟨10, _⟩ => ⟨S2x4096x8192, .f32⟩
  | .hbm, ⟨11, _⟩ => ⟨S_, .f32⟩
  | .hbm, ⟨12, _⟩ => ⟨S2x4096x8192, .f32⟩
  | .hbm, ⟨13, _⟩ => ⟨S2x4096x8192, .f32⟩
  | .hbm, ⟨14, _⟩ => ⟨S2x4096x8192, .f32⟩
  | .hbm, ⟨15, _⟩ => ⟨S2x4096x8192, .f32⟩
  | .hbm, ⟨16, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S2x4096x16384_S2x4096x8192_0_0_0 : S2x4096x16384.Slices ![0, 0, 0] S2x4096x8192
  slices_S2x4096x16384_S2x4096x8192_0_0_8192 : S2x4096x16384.Slices ![0, 0, 8192] S2x4096x8192
  bcast_S_S2x4096x8192 : S_.BroadcastsInDim S2x4096x8192 (![] : Fin 0 → Fin S2x4096x8192.rank)
  dot_S2x4096x2048_S16384x2048_S2x4096x16384_2_1_01_0_n_n_wf : DotDims.WF S2x4096x2048 S16384x2048 S2x4096x16384 [2] [1] [0, 1] [0] [] []
  dot_S2x4096x8192_S2048x8192_S2x4096x2048_2_1_01_0_n_n_wf : DotDims.WF S2x4096x8192 S2048x8192 S2x4096x2048 [2] [1] [0, 1] [0] [] []

variable [Facts₀]

def dot_S2x4096x2048_S16384x2048_S2x4096x16384_2_1_01_0_n_n : DotDims S2x4096x2048 S16384x2048 S2x4096x16384 where
  lhsContracting := [2]
  rhsContracting := [1]
  lhsNonContracting := [0, 1]
  rhsNonContracting := [0]
  lhsBatch := []
  rhsBatch := []
  wf := dot_S2x4096x2048_S16384x2048_S2x4096x16384_2_1_01_0_n_n_wf
def dot_S2x4096x8192_S2048x8192_S2x4096x2048_2_1_01_0_n_n : DotDims S2x4096x8192 S2048x8192 S2x4096x2048 where
  lhsContracting := [2]
  rhsContracting := [1]
  lhsNonContracting := [0, 1]
  rhsNonContracting := [0]
  lhsBatch := []
  rhsBatch := []
  wf := dot_S2x4096x8192_S2048x8192_S2x4096x2048_2_1_01_0_n_n_wf

class Facts : Prop extends Facts₀ where

variable [Facts]
-- ==== Proof.FrK.Runs.lean ====
/-
  What the three runs of the kernel body share.

  @main is four host lines (a reshape of the activations to [8192, 2048] and three narrowing conversions), one kernel
  region over a 32 x 8 grid, and one host line (the reshape of the [8192, 2048] result back to [2, 4096, 2048]).
  The region has five windows: the activations' row block (256 rows), the gate rows and the up rows of ONE stacked
  weight array (two windows on the same array: blocks q and q + 8 of 1024 rows), the down projection's column block, and
  the result's row block. The body keeps an accumulator between points: it clears it where the inner coordinate is 0,
  adds one block's partial product at every point, and copies it to the result's block where the inner coordinate is 7.
  Here: the buffer contents when the region is entered, @main around the region, each window's block at a point, the two
  branch conditions in closed form over the grid, where the result's window is idle, and names for the memrefs.
-/
import proofs.«169472_j27951647162501_2_alg».proof.Proof.Gen.Kernel.Launch
import proofs.«169472_j27951647162501_2_alg».proof.Proof.Gen.Kernel.Skeleton
import proofs.«169472_j27951647162501_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches TensorCore buffers only, -/
theorem sfx_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the region (it writes the final result, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals intro w; fin_cases w <;> simp only [StableHlo.nullary_writes, StableHlo.unary_writes, StableHlo.binary_writes, StableHlo.reshape_writes, Finset.mem_singleton] <;> exact StableHlo.devRef_ne_of_ne (by decide)

/-- No host line before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the entry contents and whose body leaves the block
    in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition: the inner grid coordinate is 0 (the accumulator is cleared). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the inner grid coordinate is 7 (the accumulator is copied to the result's block). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the inner coordinate is not 7 the body stores nothing into the result's block, and the block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is 7 the body stores the block. -/
theorem liveAt0_4 : ∀ t : Fin cfg0.N, cond0_1 (grid0.coords t) → cfg0.idle 4 (grid0.coords t) = false := by decide +kernel

/-! ## Names for the memrefs -/

/-- One staging buffer of the result's window, through which its contents are stated. -/
abbrev VO0_4 : View sig .tc .vmem S256x2048 .f32 := (Memref.whole cc0_stg4_0 : Memref sig .tc .vmem S256x2048 .f32).view
/-- Each window's current staging memref at point `t`, as the pipeline passes it, and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S256x2048 .f32 := Memref.whole cc0_scratch0
abbrev VS0_0 : View sig .tc .vmem S256x2048 .f32 := scM0_0.view

/-- What the launch hands the body beside the windows: the accumulator at some contents and the generator register
    at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrK.RunA.lean ====
/-
  The kernel body where the inner grid coordinate is 0 (and not 7): the accumulator is cleared and then holds the first
  block's partial product; nothing is stored into the result's block. The body's triple on any whole staging memrefs, stated
  together with the list of pieces (store rectangles and payloads) the accumulator ends with.
-/
import proofs.«169472_j27951647162501_2_alg».proof.Proof.FrK.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the accumulator ends with where the inner coordinate is 0, with the body's triple: the inputs' buffers at
    their contents and handed back unchanged, the result's buffer at contents handed back untouched, the accumulator
    at anything before and with its pieces written after. -/
noncomputable def kernelRun0_A (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7) K } := by
  refine ⟨[], ?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.FrK.RunB.lean ====
/-
  The kernel body where the inner grid coordinate is neither 0 nor 7: one block's partial product is added to the
  accumulator the point before left; nothing is stored into the result's block.
-/
import proofs.«169472_j27951647162501_2_alg».proof.Proof.FrK.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the accumulator ends with where the inner coordinate is neither 0 nor 7, with the body's triple: the
    accumulator at the contents the point before left (`xs0`) before, with its pieces written after. -/
noncomputable def kernelRun0_B (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7) K } := by
  refine ⟨[], ?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.FrK.RunC.lean ====
/-
  The kernel body where the inner grid coordinate is 7: the last block's partial product is added to the accumulator,
  and the accumulator is copied into the result's block.
-/
import proofs.«169472_j27951647162501_2_alg».proof.Proof.FrK.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the result's block and the accumulator end with where the inner coordinate is 7, with the body's
    triple: the result's buffer at anything before, the accumulator at the contents the point before left (`xs0`). -/
noncomputable def kernelRun0_C (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) :
    Σ' (L4 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.LibSharedFrame.lean ====
/-
  The frame run of a kernel region whose windows may SHARE an array, for a program that goes on after the region with
  lines of host operations.

  When two input windows of one pipeline read the same array, the buffer behind it cannot be handed to each window at the
  full share.  The certificate says how the distinct buffers behind the arrays, each whole at the full share, are dealt
  among the windows at the region's entry (`hsplit0`), how the windows' holdings at the region's exit make those buffers
  whole again (`hjoinN`), and how they are dealt once more for the final reading (`hsplitN`).  Between the two the
  lines after the region run within all the unscoped buffers, held whole.  The conclusion is the frame post: every
  array of the pipeline at what the proof data compute after the last point, every other unscoped buffer at what the
  lines leave.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN of a region whose windows may share arrays, continued by the host lines `opss`: the layout facts by
    name (no distinctness of the arrays), the dealing of the buffers behind the arrays at entry (`hsplit0`, from the
    entry contents `V₀`) and at exit (`hjoinN`, `hsplitN`, at contents `W₀` that agree with `V₀` off the arrays:
    `hW`). -/
theorem θ_run_frame_around_shared
    (hw : WinFacts₀ (cfg).spec) (hcell : Function.Injective (cellOf (nD := nD) (τ := τ) cfgs))
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hW : ∀ c (b : Ref sig .tc), (∀ w, arrRef (cfg).spec w ≠ b) → W₀ c (Proc.devRef .tc b) = V₀ c (Proc.devRef .tc b))
    (hsplit0 : ∀ c, (arrBufs (cfg).spec c (fun b => V₀ c (Proc.devRef .tc b)) : sProp 𝕄) ⊢ (dats p c).arrays ((dats p c).arrAt · 0))
    (hjoinN : ∀ c, (dats p c).arrays ((dats p c).arrAt · (cfg).N) ⊢ (arrBufs (cfg).spec c (fun b => W₀ c (Proc.devRef .tc b)) : sProp 𝕄))
    (hsplitN : ∀ c, (arrBufs (cfg).spec c (fun b => W₀ c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (W₀ c) (Proc.devRef .tc b))) := by
  classical
  -- the unscoped buffers that are no array hold the same under the entry and the exit contents
  have hrest : ∀ c, (unscopedRest (Ix := Unit) (Name := ℕ) (U := UR sig nD τ) (Lvl := ℕ) (cfg).spec c (fun b => V₀ c (Proc.devRef .tc b)) : sProp 𝕄)
      = unscopedRest (cfg).spec c (fun b => W₀ c (Proc.devRef .tc b)) := fun c => by
    unfold unscopedRest
    exact bigSep_congr fun b hb => by
      dsimp only
      rw [hW c b fun w e => (Finset.mem_sdiff.mp hb).2 (Finset.mem_image.mpr ⟨w, Finset.mem_univ _, e⟩)]
  -- the lines write no array: the buffers behind the arrays hold the exit contents after them
  have harrs : ∀ c, (arrBufs (Ix := Unit) (Name := ℕ) (U := UR sig nD τ) (Lvl := ℕ) (cfg).spec c (fun b => StableHlo.after opss.flatten (W₀ c) (Proc.devRef .tc b)) : sProp 𝕄)
      = arrBufs (cfg).spec c (fun b => W₀ c (Proc.devRef .tc b)) := fun c => by
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit0)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (W₀ c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [hrest c]
      have hstart : iprop((dats p c).arrays ((dats p c).arrAt · (cfg).N)
            ∗ unscopedRest (Ix := Unit) (Name := ℕ) (U := UR sig nD τ) (Lvl := ℕ) (cfg).spec c (fun b => W₀ c (Proc.devRef .tc b)))
          ⊢ (StableHlo.held (c.tc : Thread nD τ) (ucRefs τ sig) (W₀ c) : sProp 𝕄) := by
        rw [← unscopedBufs_held (Ix := Unit) (Name := ℕ) (U := UR sig nD τ) (Lvl := ℕ) c (W₀ c),
          unscopedBufs_split₀ cfgs p hw.arr_unscoped c]
        iintro ⟨Ha, Hz⟩
        isplitl [Ha]
        · iapply (hjoinN c); iexact Ha
        iexact Hz
      have hend : (StableHlo.held (c.tc : Thread nD τ) (ucRefs τ sig) (StableHlo.after opss.flatten (W₀ c)) : sProp 𝕄)
          ⊢ iprop((dats p c).arrays ((dats p c).arrAt · (cfg).N)
            ∗ unscopedRest (Ix := Unit) (Name := ℕ) (U := UR sig nD τ) (Lvl := ℕ) (cfg).spec c (fun b => StableHlo.after opss.flatten (W₀ c) (Proc.devRef .tc b))) := by
        rw [← unscopedBufs_held (Ix := Unit) (Name := ℕ) (U := UR sig nD τ) (Lvl := ℕ) c (StableHlo.after opss.flatten (W₀ c)),
          unscopedBufs_split₀ cfgs p hw.arr_unscoped c, harrs c]
        iintro ⟨Ha, Hz⟩
        isplitl [Ha]
        · iapply (hsplitN c); iexact Ha
        iexact Hz
      rw [← List.append_nil (opss.map StableHlo.seq)]
      iintro ⟨Hk, Hb, Ha, Hz⟩
      ihave Hu := hstart $$ [Ha Hz]
      · isplitl [Ha] <;> iassumption
      iapply (wp_seqs_then (fun q => (cfgs q).toPCfg (Val := Val)) defs₀ 𝒱₀ c (ucRefs τ sig) [] opss
        (fun ops ho op h => sub_ucRefs op (hsub ops ho op h)) hfresh (W₀ c)) $$ [Hb Hu]
      · isplitl [Hb] <;> iassumption
      iintro ⟨Hb, Hu⟩
      rw [chain_nil, wp_pure]
      imodintro
      iapply Hk
      iapply hend; iexact Hu)
    (QY := fun c s => ∀ b ∈ restRefs sig (cfg).spec, s.mem ((c.tc : Thread nD τ).loc b) = StableHlo.after opss.flatten (W₀ c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (W₀ c) (Proc.devRef .tc b)) s')
      isplitl [HU] <;> iassumption)
    (hQ := fun s h c => ⟨(h c).1, (h c).2.2⟩)

end SharedFrame

end Pipeline

end Idealize.ShloMosaic

end
-- ==== Proof.FrK.Frame.lean ====
/-
  The frame of the kernel program: every weakly fair execution of @main terminates, nothing faults, and the arrays end at
  what the proof data below compute.

  Per control case (inner coordinate 0 / neither 0 nor 7 / 7) what the body leaves in the result's staging buffer and in
  the accumulator; point by point, by recursion on the point, what they hold (`outsAt0`); the invariant between points
  (the accumulator at what the point before left); the proof data; the body obligation at a generic point; and the run.
  Two windows read ONE array (the gate rows and the up rows of the stacked weight): the buffer behind it is held by the
  two windows at the two halves of the full share, split at the region's entry and joined again at its exit.
-/
import proofs.«169472_j27951647162501_2_alg».proof.Proof.FrK.RunC
import proofs.«169472_j27951647162501_2_alg».proof.Proof.LibSharedFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the result's staging buffer: its pieces read back (none: the window is idle there, and nothing consults this). -/
def out0_A_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) : Vec F S256x2048 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) (y : S256x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x2048.size (by sl_kernel_rfl) y

/-- What case A leaves in the accumulator: its pieces read back. -/
def sout0_A_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) : Vec F S256x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the result's staging buffer: its pieces read back (none: the window is idle there, and nothing consults this). -/
def out0_B_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) (y : S256x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x2048.size (by sl_kernel_rfl) y

/-- What case B leaves in the accumulator: its pieces read back. -/
def sout0_B_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where the inner coordinate is 7 the body's one store into the result's block covers it. -/
theorem cover0_C_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) (y : S256x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S256x2048.size (by sl_kernel_rfl) y

/-- What case C leaves in the result's staging buffer: its pieces read back. -/
def out0_C_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) (y : S256x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x2048.size (by sl_kernel_rfl) y

/-- What case C leaves in the accumulator: its pieces read back. -/
def sout0_C_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the result's buffer and the accumulator hold after each point -/

/-- After the body at position `n`: the result's staging buffer and the accumulator (a pair), by the case the closed forms
    select at `n`, the accumulator read at what the point before left. -/
def outsAt0 (c : Dev nD) : (n : ℕ) → n < cfg0.N → Vec F S256x2048 .f32 × Vec F S256x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: at the start what the launch hands the body (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the result's at
    `outsAt0`; the invariant `PhiS`; the stacked weight's buffer held by its two windows at the two halves of the full
    share, every other array at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the closed forms say which case the point is in; the
    invariant hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Fr

end
-- ==== Proof.FrK.RunMain.lean ====
/-
  The run of the kernel program and its frame.

  The launch hands the region the distinct buffers behind its arrays, each whole at the full share. Two windows read the
  stacked weight's buffer: at the region's entry its full share is split into its two halves, one per window; at the exit
  the two halves, both still at the entry contents (an input array is never written), are joined again. The contents at
  the exit are the entry contents with the result array at what the write-backs left; the one host line after the region
  then runs from those. The frame claim's post is read off the run's: the argument arrays are no array of the region and
  no host line writes them.
-/
import proofs.«169472_j27951647162501_2_alg».proof.Proof.FrK.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window, and the buffers behind them -/

theorem arrays_eq' (c : Dev nD) (X : (w : Fin cfg0.W) → Buf (Elt F) ((cfg0.win w).arr.view.loc (c.tc : Thread nD τ))) :
    ((dats m 0 c).arrays X : sProp 𝕄)
      = bigSep Finset.univ fun w : Fin cfg0.W => (((c.tc : Thread nD τ).loc (Pipeline.arrRef spec0 w)) ↦{(dats m 0 c).share w} X w : sProp 𝕄) := by
  unfold Dat.arrays
  exact bigSep_congr fun w _ => by rw [(arr_whole0 w).set_eq_univ]

/-- The five windows' holdings: the stacked weight's buffer at its two half shares. -/
theorem arrays_chain (c : Dev nD) (X : (w : Fin cfg0.W) → Buf (Elt F) ((cfg0.win w).arr.view.loc (c.tc : Thread nD τ))) :
    ((dats m 0 c).arrays X : sProp 𝕄)
      = iprop((((c : Thread nD τ).loc main_v1) ↦{fullShare} X 0) ∗ (((c : Thread nD τ).loc main_v2) ↦{fullShare.left} X 1)
          ∗ (((c : Thread nD τ).loc main_v2) ↦{fullShare.right} X 2) ∗ (((c : Thread nD τ).loc main_v3) ↦{fullShare} X 3)
          ∗ (((c : Thread nD τ).loc main_v4) ↦{fullShare} X 4)) := by
  rw [arrays_eq' m c X, bigSep_W0]
  rfl

/-- The four distinct buffers behind the five windows' arrays. -/
theorem arrBufs_chain (c : Dev nD) (Vv : (b : Ref sig .tc) → Buf (Elt F) ((c.tc : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v2) ↦{fullShare} Vv main_v2)
          ∗ (((c : Thread nD τ).loc main_v3) ↦{fullShare} Vv main_v3) ∗ (((c : Thread nD τ).loc main_v4) ↦{fullShare} Vv main_v4)) := by
  unfold Pipeline.arrBufs
  exact bigSep_eq_bigSepL_of_eq [main_v1, main_v2, main_v3, main_v4] (by decide) (by decide) _

/-- An input array is never written: it holds its entry contents after any number of points. -/
theorem arrAt_in0 (c : Dev nD) (n : ℕ) : (dats m 0 c).arrAt 0 n = V m c main_v1 := ((dats m 0 c).arrAt_in 0 rfl n).trans (A_eq m c 0)
theorem arrAt_in1 (c : Dev nD) (n : ℕ) : (dats m 0 c).arrAt 1 n = V m c main_v2 := ((dats m 0 c).arrAt_in 1 rfl n).trans (A_eq m c 1)
theorem arrAt_in2 (c : Dev nD) (n : ℕ) : (dats m 0 c).arrAt 2 n = V m c main_v2 := ((dats m 0 c).arrAt_in 2 rfl n).trans (A_eq m c 2)
theorem arrAt_in3 (c : Dev nD) (n : ℕ) : (dats m 0 c).arrAt 3 n = V m c main_v3 := ((dats m 0 c).arrAt_in 3 rfl n).trans (A_eq m c 3)
theorem arrAt_out0 (c : Dev nD) : (dats m 0 c).arrAt 4 0 = V m c main_v4 := A_eq m c 4

/-! ## The contents at the region's exit -/

/-- The entry contents with the result array at what the write-backs of all the points left. -/
def W0 (c : Dev nD) : Valuation τ sig (Elt F) :=
  Function.update (V0 m c) (Proc.devRef .tc main_v4) ((dats m 0 c).arrAt 4 cfg0.N)

theorem W0_v4 (c : Dev nD) : W0 m c (Proc.devRef .tc main_v4) = (dats m 0 c).arrAt 4 cfg0.N := by
  unfold W0; exact Function.update_self _ _ _

theorem W0_ne (c : Dev nD) (b : Ref sig .tc) (h : b ≠ main_v4) : W0 m c (Proc.devRef .tc b) = V m c b := by
  unfold W0; exact Function.update_of_ne (StableHlo.devRef_ne_of_ne h) _ _

theorem hW (c : Dev nD) (b : Ref sig .tc) (h : ∀ w, Pipeline.arrRef spec0 w ≠ b) :
    W0 m c (Proc.devRef .tc b) = V0 m c (Proc.devRef .tc b) :=
  W0_ne m c b (fun e => h 4 e.symm)

/-! ## Dealing the buffers among the windows -/

theorem hsplit0 (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_chain, arrays_chain]
  rw [arrAt_in0, arrAt_in1, arrAt_in2, arrAt_in3, arrAt_out0]
  iintro ⟨H1, H2, H3, H4⟩
  ihave H2' := (pointsTo_share (PosShare.mem_left_op_right fullShare)).1 $$ H2
  icases H2' with ⟨H2a, H2b⟩
  isplitl [H1]; · iexact H1
  isplitl [H2a]; · iexact H2a
  isplitl [H2b]; · iexact H2b
  isplitl [H3]; · iexact H3
  iexact H4

theorem hjoinN (c : Dev nD) :
    (dats m 0 c).arrays ((dats m 0 c).arrAt · cfg0.N)
      ⊢ (Pipeline.arrBufs (Ix := Unit) (Name := ℕ) (U := UR sig nD τ) (Lvl := ℕ) spec0 c (fun b => W0 m c (Proc.devRef .tc b)) : sProp 𝕄) := by
  rw [arrBufs_chain, arrays_chain]
  rw [arrAt_in0, arrAt_in1, arrAt_in2, arrAt_in3, W0_v4, W0_ne m c main_v1 (by decide), W0_ne m c main_v2 (by decide), W0_ne m c main_v3 (by decide)]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

theorem hsplitN (c : Dev nD) :
    (Pipeline.arrBufs (Ix := Unit) (Name := ℕ) (U := UR sig nD τ) (Lvl := ℕ) spec0 c (fun b => W0 m c (Proc.devRef .tc b)) : sProp 𝕄)
      ⊢ (dats m 0 c).arrays ((dats m 0 c).arrAt · cfg0.N) := by
  rw [arrBufs_chain, arrays_chain]
  rw [arrAt_in0, arrAt_in1, arrAt_in2, arrAt_in3, W0_v4, W0_ne m c main_v1 (by decide), W0_ne m c main_v2 (by decide), W0_ne m c main_v3 (by decide)]
  iintro ⟨H1, H2, H3, H4⟩
  ihave H2' := (pointsTo_share (PosShare.mem_left_op_right fullShare)).1 $$ H2
  icases H2' with ⟨H2a, H2b⟩
  isplitl [H1]; · iexact H1
  isplitl [H2a]; · iexact H2a
  isplitl [H2b]; · iexact H2b
  isplitl [H3]; · iexact H3
  iexact H4

/-! ## The run and the frame -/

set_option backward.isDefEq.respectTransparency.types false in
/-- Every weakly fair execution of @main terminates, and every final state has every array of the region at what the
    proof data compute and every other unscoped buffer at what the host line after the region leaves. -/
theorem run_main : θ_run defs (onTc (τ := τ) (main (F := F))) (s₀ m ρ)
    (Pipeline.FramePost cfgs (dats m) 0 (fun c b => StableHlo.after (List.flatten [hostOps1]) (W0 m c) (Proc.devRef .tc b))) :=
  Pipeline.θ_run_frame_around_shared cfgs (dats m) (0 : Fin 1) defs₀ Variants.none winFacts₀0 cellOf_inj block_pos0 arr_whole0 stage_whole0 m ρ main
    (hbody := fun c => (body_obligation m c).loose) (howed := fun _ _ => rfl)
    (V₀ := V0 m) (W₀ := W0 m) (opss := [hostOps1]) (hsub := sfx_sub) (hfresh := sfx_fresh) (hkeep := sfx_keeps)
    (hmain := hmain m Variants.none) (hW := hW m) (hsplit0 := hsplit0 m) (hjoinN := hjoinN m) (hsplitN := hsplitN m)
    (hin := hin m) (hout := hout m)

/-- The host line after the region writes no argument. -/
theorem tail_keeps (c : Dev nD) (b : Ref sig .tc) (hb : b ≠ main_v5) (hb4 : b ≠ main_v4) :
    StableHlo.after (List.flatten [hostOps1]) (W0 m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb))]
  exact W0_ne m c b hb4

/-- THE FRAME: @main runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans ((tail_keeps m c main_arg0 (by decide) (by decide)).trans (V_main_arg0 m c)),
     ((h c).2 main_arg1 (Pipeline.mem_restRefs_of main_arg1 (by decide) (by decide))).trans ((tail_keeps m c main_arg1 (by decide) (by decide)).trans (V_main_arg1 m c)),
     ((h c).2 main_arg2 (Pipeline.mem_restRefs_of main_arg2 (by decide) (by decide))).trans ((tail_keeps m c main_arg2 (by decide) (by decide)).trans (V_main_arg2 m c))⟩)
    (run_main m ρ)

/-- The run with the result named: the final result buffer is the host line's reading of the exit contents. -/
theorem run_result : θ_run defs (onTc (τ := τ) (main (F := F))) ⟨m, fun _ => 0, ρ⟩ (fun r => ∀ c : Dev nD,
      r.2.mem ((c.tc : Thread nD τ).loc main_v5) = StableHlo.after (List.flatten [hostOps1]) (W0 m c) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v5 (Pipeline.mem_restRefs_of main_v5 (by decide) (by decide)),
     ((h c).2 main_arg0 (Pipeline.mem_restRefs_of main_arg0 (by decide) (by decide))).trans ((tail_keeps m c main_arg0 (by decide) (by decide)).trans (V_main_arg0 m c)),
     ((h c).2 main_arg1 (Pipeline.mem_restRefs_of main_arg1 (by decide) (by decide))).trans ((tail_keeps m c main_arg1 (by decide) (by decide)).trans (V_main_arg1 m c)),
     ((h c).2 main_arg2 (Pipeline.mem_restRefs_of main_arg2 (by decide) (by decide))).trans ((tail_keeps m c main_arg2 (by decide) (by decide)).trans (V_main_arg2 m c))⟩)
    (run_main m ρ)

end Cert.Kernel.Fr

end
-- ==== Proof.FrKI.Runs.lean ====
/-
  What the three runs of the kernel body share.

  @main is four host lines (a reshape of the activations to [8192, 2048] and three narrowing conversions), one kernel
  region over a 32 x 8 grid, and one host line (the reshape of the [8192, 2048] result back to [2, 4096, 2048]).
  The region has five windows: the activations' row block (256 rows), the gate rows and the up rows of ONE stacked
  weight array (two windows on the same array: blocks q and q + 8 of 1024 rows), the down projection's column block, and
  the result's row block. The body keeps an accumulator between points: it clears it where the inner coordinate is 0,
  adds one block's partial product at every point, and copies it to the result's block where the inner coordinate is 7.
  Here: the buffer contents when the region is entered, @main around the region, each window's block at a point, the two
  branch conditions in closed form over the grid, where the result's window is idle, and names for the memrefs.
-/
import proofs.«169472_j27951647162501_2_alg».proof.Proof.Gen.KernelIdeal.Launch
import proofs.«169472_j27951647162501_2_alg».proof.Proof.Gen.KernelIdeal.Skeleton
import proofs.«169472_j27951647162501_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches TensorCore buffers only, -/
theorem sfx_sub : ∀ ops ∈ ([hostOps1] : List (List (HloOp τ sig (Elt F)))), ∀ op ∈ ops,
    op.bufs ⊆ StableHlo.tcRefs τ sig := by
  intro ops hops op hop
  simp only [List.mem_cons, List.mem_nil_iff, or_false] at hops
  rcases hops with rfl
  exact (List.forall_iff_forall_mem.mp hostOps1_sub) op hop
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the region (it writes the final result, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals intro w; fin_cases w <;> simp only [StableHlo.nullary_writes, StableHlo.unary_writes, StableHlo.binary_writes, StableHlo.reshape_writes, Finset.mem_singleton] <;> exact StableHlo.devRef_ne_of_ne (by decide)

/-- No host line before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the entry contents and whose body leaves the block
    in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition: the inner grid coordinate is 0 (the accumulator is cleared). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the inner grid coordinate is 7 (the accumulator is copied to the result's block). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the inner coordinate is not 7 the body stores nothing into the result's block, and the block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is 7 the body stores the block. -/
theorem liveAt0_4 : ∀ t : Fin cfg0.N, cond0_1 (grid0.coords t) → cfg0.idle 4 (grid0.coords t) = false := by decide +kernel

/-! ## Names for the memrefs -/

/-- One staging buffer of the result's window, through which its contents are stated. -/
abbrev VO0_4 : View sig .tc .vmem S256x2048 .f32 := (Memref.whole cc0_stg4_0 : Memref sig .tc .vmem S256x2048 .f32).view
/-- Each window's current staging memref at point `t`, as the pipeline passes it, and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S256x2048 .f32 := Memref.whole cc0_scratch0
abbrev VS0_0 : View sig .tc .vmem S256x2048 .f32 := scM0_0.view

/-- What the launch hands the body beside the windows: the accumulator at some contents and the generator register
    at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrKI.RunA.lean ====
/-
  The kernel body where the inner grid coordinate is 0 (and not 7): the accumulator is cleared and then holds the first
  block's partial product; nothing is stored into the result's block. The body's triple on any whole staging memrefs, stated
  together with the list of pieces (store rectangles and payloads) the accumulator ends with.
-/
import proofs.«169472_j27951647162501_2_alg».proof.Proof.FrKI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the accumulator ends with where the inner coordinate is 0, with the body's triple: the inputs' buffers at
    their contents and handed back unchanged, the result's buffer at contents handed back untouched, the accumulator
    at anything before and with its pieces written after. -/
noncomputable def kernelRun0_A (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7) K } := by
  refine ⟨[], ?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.FrKI.RunB.lean ====
/-
  The kernel body where the inner grid coordinate is neither 0 nor 7: one block's partial product is added to the
  accumulator the point before left; nothing is stored into the result's block.
-/
import proofs.«169472_j27951647162501_2_alg».proof.Proof.FrKI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the accumulator ends with where the inner coordinate is neither 0 nor 7, with the body's triple: the
    accumulator at the contents the point before left (`xs0`) before, with its pieces written after. -/
noncomputable def kernelRun0_B (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) :
    Σ' (L4 : List (View.Piece (Elt F) S256x2048 .f32)), { LS0 : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7) K } := by
  refine ⟨[], ?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.FrKI.RunC.lean ====
/-
  The kernel body where the inner grid coordinate is 7: the last block's partial product is added to the accumulator,
  and the accumulator is copied into the result's block.
-/
import proofs.«169472_j27951647162501_2_alg».proof.Proof.FrKI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the result's block and the accumulator end with where the inner coordinate is 7, with the body's
    triple: the result's buffer at anything before, the accumulator at the contents the point before left (`xs0`). -/
noncomputable def kernelRun0_C (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) :
    Σ' (L4 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.FrKI.Frame.lean ====
/-
  The frame of the kernel program: every weakly fair execution of @main terminates, nothing faults, and the arrays end at
  what the proof data below compute.

  Per control case (inner coordinate 0 / neither 0 nor 7 / 7) what the body leaves in the result's staging buffer and in
  the accumulator; point by point, by recursion on the point, what they hold (`outsAt0`); the invariant between points
  (the accumulator at what the point before left); the proof data; the body obligation at a generic point; and the run.
  Two windows read ONE array (the gate rows and the up rows of the stacked weight): the buffer behind it is held by the
  two windows at the two halves of the full share, split at the region's entry and joined again at its exit.
-/
import proofs.«169472_j27951647162501_2_alg».proof.Proof.FrKI.RunC
import proofs.«169472_j27951647162501_2_alg».proof.Proof.LibSharedFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the result's staging buffer: its pieces read back (none: the window is idle there, and nothing consults this). -/
def out0_A_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) : Vec F S256x2048 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) (y : S256x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x2048.size (by sl_kernel_rfl) y

/-- What case A leaves in the accumulator: its pieces read back. -/
def sout0_A_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) : Vec F S256x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the result's staging buffer: its pieces read back (none: the window is idle there, and nothing consults this). -/
def out0_B_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) (y : S256x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x2048.size (by sl_kernel_rfl) y

/-- What case B leaves in the accumulator: its pieces read back. -/
def sout0_B_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Where the inner coordinate is 7 the body's one store into the result's block covers it. -/
theorem cover0_C_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) (y : S256x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S256x2048.size (by sl_kernel_rfl) y

/-- What case C leaves in the result's staging buffer: its pieces read back. -/
def out0_C_4 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) (y : S256x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x2048.size (by sl_kernel_rfl) y

/-- What case C leaves in the accumulator: its pieces read back. -/
def sout0_C_0 (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) : Vec F S256x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the result's buffer and the accumulator hold after each point -/

/-- After the body at position `n`: the result's staging buffer and the accumulator (a pair), by the case the closed forms
    select at `n`, the accumulator read at what the point before left. -/
def outsAt0 (c : Dev nD) : (n : ℕ) → n < cfg0.N → Vec F S256x2048 .f32 × Vec F S256x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: at the start what the launch hands the body (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the result's at
    `outsAt0`; the invariant `PhiS`; the stacked weight's buffer held by its two windows at the two halves of the full
    share, every other array at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the closed forms say which case the point is in; the
    invariant hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Fr

end
-- ==== Proof.FrKI.RunMain.lean ====
/-
  The run of the kernel program and its frame.

  The launch hands the region the distinct buffers behind its arrays, each whole at the full share. Two windows read the
  stacked weight's buffer: at the region's entry its full share is split into its two halves, one per window; at the exit
  the two halves, both still at the entry contents (an input array is never written), are joined again. The contents at
  the exit are the entry contents with the result array at what the write-backs left; the one host line after the region
  then runs from those. The frame claim's post is read off the run's: the argument arrays are no array of the region and
  no host line writes them.
-/
import proofs.«169472_j27951647162501_2_alg».proof.Proof.FrKI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window, and the buffers behind them -/

theorem arrays_eq' (c : Dev nD) (X : (w : Fin cfg0.W) → Buf (Elt F) ((cfg0.win w).arr.view.loc (c.tc : Thread nD τ))) :
    ((dats m 0 c).arrays X : sProp 𝕄)
      = bigSep Finset.univ fun w : Fin cfg0.W => (((c.tc : Thread nD τ).loc (Pipeline.arrRef spec0 w)) ↦{(dats m 0 c).share w} X w : sProp 𝕄) := by
  unfold Dat.arrays
  exact bigSep_congr fun w _ => by rw [(arr_whole0 w).set_eq_univ]

/-- The five windows' holdings: the stacked weight's buffer at its two half shares. -/
theorem arrays_chain (c : Dev nD) (X : (w : Fin cfg0.W) → Buf (Elt F) ((cfg0.win w).arr.view.loc (c.tc : Thread nD τ))) :
    ((dats m 0 c).arrays X : sProp 𝕄)
      = iprop((((c : Thread nD τ).loc main_v1) ↦{fullShare} X 0) ∗ (((c : Thread nD τ).loc main_v2) ↦{fullShare.left} X 1)
          ∗ (((c : Thread nD τ).loc main_v2) ↦{fullShare.right} X 2) ∗ (((c : Thread nD τ).loc main_v3) ↦{fullShare} X 3)
          ∗ (((c : Thread nD τ).loc main_v4) ↦{fullShare} X 4)) := by
  rw [arrays_eq' m c X, bigSep_W0]
  rfl

/-- The four distinct buffers behind the five windows' arrays. -/
theorem arrBufs_chain (c : Dev nD) (Vv : (b : Ref sig .tc) → Buf (Elt F) ((c.tc : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v2) ↦{fullShare} Vv main_v2)
          ∗ (((c : Thread nD τ).loc main_v3) ↦{fullShare} Vv main_v3) ∗ (((c : Thread nD τ).loc main_v4) ↦{fullShare} Vv main_v4)) := by
  unfold Pipeline.arrBufs
  exact bigSep_eq_bigSepL_of_eq [main_v1, main_v2, main_v3, main_v4] (by decide) (by decide) _

/-- An input array is never written: it holds its entry contents after any number of points. -/
theorem arrAt_in0 (c : Dev nD) (n : ℕ) : (dats m 0 c).arrAt 0 n = V m c main_v1 := ((dats m 0 c).arrAt_in 0 rfl n).trans (A_eq m c 0)
theorem arrAt_in1 (c : Dev nD) (n : ℕ) : (dats m 0 c).arrAt 1 n = V m c main_v2 := ((dats m 0 c).arrAt_in 1 rfl n).trans (A_eq m c 1)
theorem arrAt_in2 (c : Dev nD) (n : ℕ) : (dats m 0 c).arrAt 2 n = V m c main_v2 := ((dats m 0 c).arrAt_in 2 rfl n).trans (A_eq m c 2)
theorem arrAt_in3 (c : Dev nD) (n : ℕ) : (dats m 0 c).arrAt 3 n = V m c main_v3 := ((dats m 0 c).arrAt_in 3 rfl n).trans (A_eq m c 3)
theorem arrAt_out0 (c : Dev nD) : (dats m 0 c).arrAt 4 0 = V m c main_v4 := A_eq m c 4

/-! ## The contents at the region's exit -/

/-- The entry contents with the result array at what the write-backs of all the points left. -/
def W0 (c : Dev nD) : Valuation τ sig (Elt F) :=
  Function.update (V0 m c) (Proc.devRef .tc main_v4) ((dats m 0 c).arrAt 4 cfg0.N)

theorem W0_v4 (c : Dev nD) : W0 m c (Proc.devRef .tc main_v4) = (dats m 0 c).arrAt 4 cfg0.N := by
  unfold W0; exact Function.update_self _ _ _

theorem W0_ne (c : Dev nD) (b : Ref sig .tc) (h : b ≠ main_v4) : W0 m c (Proc.devRef .tc b) = V m c b := by
  unfold W0; exact Function.update_of_ne (StableHlo.devRef_ne_of_ne h) _ _

theorem hW (c : Dev nD) (b : Ref sig .tc) (h : ∀ w, Pipeline.arrRef spec0 w ≠ b) :
    W0 m c (Proc.devRef .tc b) = V0 m c (Proc.devRef .tc b) :=
  W0_ne m c b (fun e => h 4 e.symm)

/-! ## Dealing the buffers among the windows -/

theorem hsplit0 (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_chain, arrays_chain]
  rw [arrAt_in0, arrAt_in1, arrAt_in2, arrAt_in3, arrAt_out0]
  iintro ⟨H1, H2, H3, H4⟩
  ihave H2' := (pointsTo_share (PosShare.mem_left_op_right fullShare)).1 $$ H2
  icases H2' with ⟨H2a, H2b⟩
  isplitl [H1]; · iexact H1
  isplitl [H2a]; · iexact H2a
  isplitl [H2b]; · iexact H2b
  isplitl [H3]; · iexact H3
  iexact H4

theorem hjoinN (c : Dev nD) :
    (dats m 0 c).arrays ((dats m 0 c).arrAt · cfg0.N)
      ⊢ (Pipeline.arrBufs (Ix := Unit) (Name := ℕ) (U := UR sig nD τ) (Lvl := ℕ) spec0 c (fun b => W0 m c (Proc.devRef .tc b)) : sProp 𝕄) := by
  rw [arrBufs_chain, arrays_chain]
  rw [arrAt_in0, arrAt_in1, arrAt_in2, arrAt_in3, W0_v4, W0_ne m c main_v1 (by decide), W0_ne m c main_v2 (by decide), W0_ne m c main_v3 (by decide)]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

theorem hsplitN (c : Dev nD) :
    (Pipeline.arrBufs (Ix := Unit) (Name := ℕ) (U := UR sig nD τ) (Lvl := ℕ) spec0 c (fun b => W0 m c (Proc.devRef .tc b)) : sProp 𝕄)
      ⊢ (dats m 0 c).arrays ((dats m 0 c).arrAt · cfg0.N) := by
  rw [arrBufs_chain, arrays_chain]
  rw [arrAt_in0, arrAt_in1, arrAt_in2, arrAt_in3, W0_v4, W0_ne m c main_v1 (by decide), W0_ne m c main_v2 (by decide), W0_ne m c main_v3 (by decide)]
  iintro ⟨H1, H2, H3, H4⟩
  ihave H2' := (pointsTo_share (PosShare.mem_left_op_right fullShare)).1 $$ H2
  icases H2' with ⟨H2a, H2b⟩
  isplitl [H1]; · iexact H1
  isplitl [H2a]; · iexact H2a
  isplitl [H2b]; · iexact H2b
  isplitl [H3]; · iexact H3
  iexact H4

/-! ## The run and the frame -/

set_option backward.isDefEq.respectTransparency.types false in
/-- Every weakly fair execution of @main terminates, and every final state has every array of the region at what the
    proof data compute and every other unscoped buffer at what the host line after the region leaves. -/
theorem run_main : θ_run defs (onTc (τ := τ) (main (F := F))) (s₀ m ρ)
    (Pipeline.FramePost cfgs (dats m) 0 (fun c b => StableHlo.after (List.flatten [hostOps1]) (W0 m c) (Proc.devRef .tc b))) :=
  Pipeline.θ_run_frame_around_shared cfgs (dats m) (0 : Fin 1) defs₀ Variants.none winFacts₀0 cellOf_inj block_pos0 arr_whole0 stage_whole0 m ρ main
    (hbody := fun c => (body_obligation m c).loose) (howed := fun _ _ => rfl)
    (V₀ := V0 m) (W₀ := W0 m) (opss := [hostOps1]) (hsub := sfx_sub) (hfresh := sfx_fresh) (hkeep := sfx_keeps)
    (hmain := hmain m Variants.none) (hW := hW m) (hsplit0 := hsplit0 m) (hjoinN := hjoinN m) (hsplitN := hsplitN m)
    (hin := hin m) (hout := hout m)

/-- The host line after the region writes no argument. -/
theorem tail_keeps (c : Dev nD) (b : Ref sig .tc) (hb : b ≠ main_v5) (hb4 : b ≠ main_v4) :
    StableHlo.after (List.flatten [hostOps1]) (W0 m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb))]
  exact W0_ne m c b hb4

/-- THE FRAME: @main runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans ((tail_keeps m c main_arg0 (by decide) (by decide)).trans (V_main_arg0 m c)),
     ((h c).2 main_arg1 (Pipeline.mem_restRefs_of main_arg1 (by decide) (by decide))).trans ((tail_keeps m c main_arg1 (by decide) (by decide)).trans (V_main_arg1 m c)),
     ((h c).2 main_arg2 (Pipeline.mem_restRefs_of main_arg2 (by decide) (by decide))).trans ((tail_keeps m c main_arg2 (by decide) (by decide)).trans (V_main_arg2 m c))⟩)
    (run_main m ρ)

/-- The run with the result named: the final result buffer is the host line's reading of the exit contents. -/
theorem run_result : θ_run defs (onTc (τ := τ) (main (F := F))) ⟨m, fun _ => 0, ρ⟩ (fun r => ∀ c : Dev nD,
      r.2.mem ((c.tc : Thread nD τ).loc main_v5) = StableHlo.after (List.flatten [hostOps1]) (W0 m c) (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v5 (Pipeline.mem_restRefs_of main_v5 (by decide) (by decide)),
     ((h c).2 main_arg0 (Pipeline.mem_restRefs_of main_arg0 (by decide) (by decide))).trans ((tail_keeps m c main_arg0 (by decide) (by decide)).trans (V_main_arg0 m c)),
     ((h c).2 main_arg1 (Pipeline.mem_restRefs_of main_arg1 (by decide) (by decide))).trans ((tail_keeps m c main_arg1 (by decide) (by decide)).trans (V_main_arg1 m c)),
     ((h c).2 main_arg2 (Pipeline.mem_restRefs_of main_arg2 (by decide) (by decide))).trans ((tail_keeps m c main_arg2 (by decide) (by decide)).trans (V_main_arg2 m c))⟩)
    (run_main m ρ)

end Cert.KernelIdeal.Fr

end
-- ==== Proof.FrKI.Pieces.lean ====
/-
  What each control case leaves, over the body's two payloads.

  Every store of the body is a store of a whole 256 x 2048 block, so what a buffer holds after the body is its LAST
  store's payload, and every load reads the whole block it is given. Where the inner coordinate is 0 the accumulator is
  first cleared (the zero payload) and the partial product is added to that; elsewhere it is added to what the point
  before left; where the inner coordinate is 7 the result's block receives a copy of the accumulator just stored.
-/
import proofs.«169472_j27951647162501_2_alg».proof.Proof.FrKI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every load and store of the body are zero. -/
theorem hz2 : (![0, 0] : Fin 2 → ℕ) = fun _ => 0 := by funext a; fin_cases a <;> rfl

/-- Inner coordinate 0: the accumulator ends at the partial product added to the zero payload. -/
theorem sout0_A_eq (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : cond0_0 i) (hc1 : ¬cond0_1 i)
    (x0 : Vec F S256x2048 .bf16) (x1 : Vec F S1024x2048 .bf16) (x2 : Vec F S1024x2048 .bf16) (x3 : Vec F S2048x1024 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread,
    View.ld_unit_zero (S := S256x2048) hz2, View.ld_unit_zero (S := S1024x2048) hz2, View.ld_unit_zero (S := S2048x1024) hz2]
  rw [View.readCov_unit_zero (S := S256x2048) _ hz2]

/-- Inner coordinate neither 0 nor 7: the partial product added to what the point before left. -/
theorem sout0_B_eq (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : ¬cond0_1 i)
    (x0 : Vec F S256x2048 .bf16) (x1 : Vec F S1024x2048 .bf16) (x2 : Vec F S1024x2048 .bf16) (x3 : Vec F S2048x1024 .bf16) (xs0 : Vec F S256x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  first | rw [View.canon_unit_zero hz2] | rw [View.canon_cons_unit_zero hz2]
  simp only [View.readAt_eq_ld, harg2.read_unread, harg3.read_unread, harg4.read_unread, harg5.read_unread, harg7.read_unread,
    View.ld_unit_zero (S := S256x2048) hz2, View.ld_unit_zero (S := S1024x2048) hz2, View.ld_unit_zero (S := S2048x1024) hz2]

/-- Inner coordinate 7: the accumulator likewise, -/
theorem sout0_C_eq (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  first | rw [View.canon_unit_zero hz2] | rw [View.canon_cons_unit_zero hz2]
  simp only [View.readAt_eq_ld, harg2.read_unread, harg3.read_unread, harg4.read_unread, harg5.read_unread, harg7.read_unread,
    View.ld_unit_zero (S := S256x2048) hz2, View.ld_unit_zero (S := S1024x2048) hz2, View.ld_unit_zero (S := S2048x1024) hz2]

/-- and the result's block receives a copy of it. -/
theorem out0_C_eq (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S2048x1024 .bf16) (harg5 : arg5.IsWhole) (arg6 : Memref sig .tc .vmem S256x2048 .f32) (harg6 : arg6.IsWhole) (arg7 : Memref sig .tc .vmem S256x2048 .f32) (harg7 : arg7.IsWhole) (hc0 : ¬cond0_0 i) (hc1 : cond0_1 i)
    (x0 : Vec F S256x2048 .bf16) (x1 : Vec F S1024x2048 .bf16) (x2 : Vec F S1024x2048 .bf16) (x3 : Vec F S2048x1024 .bf16) (xs0 : Vec F S256x2048 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  rw [View.readCov_unit_zero (S := S256x2048) _ hz2]
  simp only [View.readAt_eq_ld, harg2.read_unread, harg3.read_unread, harg4.read_unread, harg5.read_unread, harg7.read_unread,
    View.ld_unit_zero (S := S256x2048) hz2, View.ld_unit_zero (S := S1024x2048) hz2, View.ld_unit_zero (S := S2048x1024) hz2]

end Cert.KernelIdeal.Fr

end
-- ==== Proof.LibMatmulRows.lean ====
/-
  A general reading lemma: at the ideal values, a matrix product that contracts the LAST axis of both operands
  (a product with the second operand transposed, [m, k] · [n, k]ᵀ), accumulated into the zero splat, read at an
  index, is the sum over the contracted coordinate of the products of the two rows' entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LibMatmulRows

/-- A `tpu.matmul` of an [m, k] operand with an [n, k] operand, contracting axis 1 of both, into the f32 zero splat,
    read at (a, b) at the ideal values: the sum over `c : Fin k` of the first operand at (a, c) times the second at
    (b, c) — for any extents and operand formats. `w` is the record's well-formedness, which a program states. -/
theorem matmul_rows_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulRows

end
-- ==== Proof.PayloadAt.lean ====
/-
  The kernel body's two stored values, read at an index, at the ideal values.

  The first is the zero splat. The second is the accumulator plus one block's partial product: with
  g j = Σ_k x0[r,k] · x1[j,k] and u j = Σ_k x0[r,k] · x2[j,k], the value at (r, h) is
  acc[r,h] + Σ_j ((g j · logistic (g j)) · u j) · x3[h,j].
-/
import proofs.«169472_j27951647162501_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«169472_j27951647162501_2_alg».proof.Proof.LibMatmulRows

noncomputable section

namespace Cert.KernelIdeal.PayloadAt

open Cert.KernelIdeal Cert.KernelIdeal.Gen Idealize.ShloMosaic Idealize.ShloMosaic.ValueIdx
open scoped BigOperators

variable [Cert.KernelIdeal.Facts]

/-- The value stored at the first step of a row block is zero everywhere. -/
theorem pay1_apply (r : Fin 256) (h : Fin 2048) : k0_pay1 (F := Ideal) (ix2 r h) = (0 : EReal) := by
  unfold k0_pay1
  rw [shapeCast_self]
  exact Ideal.ofBits_zero_f32

/-- The value stored at every step: the accumulator plus the block's partial product. -/
theorem pay2_apply (x0 : Vec Ideal S256x2048 .bf16) (x1 x2 : Vec Ideal S1024x2048 .bf16)
    (x3 : Vec Ideal S2048x1024 .bf16) (acc : Vec Ideal S256x2048 .f32) (r : Fin 256) (h : Fin 2048) :
    k0_pay2 (F := Ideal) x0 x1 x2 x3 acc (ix2 r h)
      = acc (ix2 r h) + ∑ j : Fin 1024, (((∑ k : Fin 2048, x0 (ix2 r k) * x1 (ix2 j k))
          * Ideal.logistic (∑ k : Fin 2048, x0 (ix2 r k) * x1 (ix2 j k)))
          * (∑ k : Fin 2048, x0 (ix2 r k) * x2 (ix2 j k))) * x3 (ix2 h j) := by
  unfold k0_pay2
  simp only [shapeCast_self]
  rw [addf_apply]
  congr 1
  -- the outer product contracts the intermediate feature j
  refine (Cert.LibMatmulRows.matmul_rows_apply (φ₁ := .bf16) (φ₂ := .bf16) _ none _ x3 r h).trans ?_
  refine Finset.sum_congr rfl fun j _ => ?_
  rw [truncf_apply, mulf_apply, mulf_apply]
  -- the two inner products at (r, j) contract the hidden coordinate k
  have hg : matmul dot_S256x2048_S1024x2048_S256x1024_1_1_0_0_n_n none x0 x1
      (constant (F := Ideal) S256x1024 .f32 0x00000000#32) (ix2 r j)
        = ∑ k : Fin 2048, x0 (ix2 r k) * x1 (ix2 j k) :=
    Cert.LibMatmulRows.matmul_rows_apply (φ₁ := .bf16) (φ₂ := .bf16) _ none x0 x1 r j
  have hu : matmul dot_S256x2048_S1024x2048_S256x1024_1_1_0_0_n_n none x0 x2
      (constant (F := Ideal) S256x1024 .f32 0x00000000#32) (ix2 r j)
        = ∑ k : Fin 2048, x0 (ix2 r k) * x2 (ix2 j k) :=
    Cert.LibMatmulRows.matmul_rows_apply (φ₁ := .bf16) (φ₂ := .bf16) _ none x0 x2 r j
  -- the logistic is taken elementwise
  have hl : logistic (matmul dot_S256x2048_S1024x2048_S256x1024_1_1_0_0_n_n none x0 x1
      (constant (F := Ideal) S256x1024 .f32 0x00000000#32)) (ix2 r j)
        = Ideal.logistic (∑ k : Fin 2048, x0 (ix2 r k) * x1 (ix2 j k)) :=
    congrArg Ideal.logistic hg
  rw [hl, hg, hu]

end Cert.KernelIdeal.PayloadAt

end
-- ==== Proof.BlockAt.lean ====
/-
  Each window's block at a grid point, read at an index, as an entry of the window's array.

  The grid is 32 x 8, row-major: point t has outer coordinate t / 8 and inner coordinate t % 8. The activations'
  block (256 rows) and the result's block sit at row block t / 8; the gate rows and the up rows (1024 rows each, of the
  same stacked array) at row blocks t % 8 and t % 8 + 8; the down projection's block (1024 columns) at column block
  t % 8. Inside a block an entry's coordinate is block index x block extent + the coordinate inside the block.
-/
import proofs.«169472_j27951647162501_2_alg».proof.Proof.FrKI.Runs
import Idealize.ShloMosaic.Lib.ValueIdx
import Idealize.ShloMosaic.Lib.Pipeline.Value

noncomputable section

namespace Cert.KernelIdeal.BlockAt

open Cert.KernelIdeal Cert.KernelIdeal.Gen Cert.KernelIdeal.Fr Idealize.ShloMosaic Idealize.ShloMosaic.ValueIdx

variable {F : FTy → Type} [FloatOps F]
variable (m : (ℓ : Loc nD τ sig) → Buf (Elt F) ℓ) (c : Dev nD) (t : Fin cfg0.N)

/-- A grid point is below 256. -/
theorem t_lt (t : Fin cfg0.N) : t.val < 256 :=
  t.isLt.trans_eq N_0

/-- The printed index maps in closed form, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 + 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- Row r of the activations' (and the result's) block at point t, as a row of the [8192, 2048] array. -/
abbrev actRow (t : Fin cfg0.N) (r : Fin 256) : Fin 8192 := ⟨t.val / 8 * 256 + r.val, by have := t_lt t; have := r.isLt; omega⟩
/-- Row j of the gate block at point t, as a row of the stacked [16384, 2048] array. -/
abbrev gateRowAt (t : Fin cfg0.N) (j : Fin 1024) : Fin 16384 := ⟨t.val % 8 * 1024 + j.val, by have := j.isLt; omega⟩
/-- Row j of the up block at point t, as a row of the stacked [16384, 2048] array. -/
abbrev upRowAt (t : Fin cfg0.N) (j : Fin 1024) : Fin 16384 := ⟨(t.val % 8 + 8) * 1024 + j.val, by have := j.isLt; omega⟩
/-- Column j of the down projection's block at point t, as a column of the [2048, 8192] array. -/
abbrev downCol (t : Fin cfg0.N) (j : Fin 1024) : Fin 8192 := ⟨t.val % 8 * 1024 + j.val, by have := j.isLt; omega⟩

/-- The activations' block at point t is rows t / 8 * 256 … + 255 of the activations. -/
theorem iblk0_apply (r : Fin 256) (k : Fin 2048) :
    (iblk m c 0 t : Vec F S256x2048 .bf16) (ix2 r k) = (V m c main_v1 : S8192x2048.Idx → Elt F .bf16) (ix2 (actRow t r) k) := by
  obtain ⟨e00, e01, -⟩ := idx_facts t
  unfold iblk
  rw [View.read_apply]
  show V m c main_v1 _ = V m c main_v1 _
  congr 1
  funext a
  apply Fin.ext
  match a with
  | ⟨0, _⟩ => show win0_0.index t (0 : Fin 2) * 256 + 1 * r.val = t.val / 8 * 256 + r.val; rw [e00]; omega
  | ⟨1, _⟩ => show win0_0.index t (1 : Fin 2) * 2048 + 1 * k.val = k.val; rw [e01]; omega

/-- The gate block at point t is rows t % 8 * 1024 … + 1023 of the stacked weight. -/
theorem iblk1_apply (j : Fin 1024) (k : Fin 2048) :
    (iblk m c 1 t : Vec F S1024x2048 .bf16) (ix2 j k) = (V m c main_v2 : S16384x2048.Idx → Elt F .bf16) (ix2 (gateRowAt t j) k) := by
  obtain ⟨-, -, e10, e11, -⟩ := idx_facts t
  unfold iblk
  rw [View.read_apply]
  show V m c main_v2 _ = V m c main_v2 _
  congr 1
  funext a
  apply Fin.ext
  match a with
  | ⟨0, _⟩ => show win0_1.index t (0 : Fin 2) * 1024 + 1 * j.val = t.val % 8 * 1024 + j.val; rw [e10]; omega
  | ⟨1, _⟩ => show win0_1.index t (1 : Fin 2) * 2048 + 1 * k.val = k.val; rw [e11]; omega

/-- The up block at point t is rows (t % 8 + 8) * 1024 … + 1023 of the same stacked weight. -/
theorem iblk2_apply (j : Fin 1024) (k : Fin 2048) :
    (iblk m c 2 t : Vec F S1024x2048 .bf16) (ix2 j k) = (V m c main_v2 : S16384x2048.Idx → Elt F .bf16) (ix2 (upRowAt t j) k) := by
  obtain ⟨-, -, -, -, e20, e21, -⟩ := idx_facts t
  unfold iblk
  rw [View.read_apply]
  show V m c main_v2 _ = V m c main_v2 _
  congr 1
  funext a
  apply Fin.ext
  match a with
  | ⟨0, _⟩ => show win0_2.index t (0 : Fin 2) * 1024 + 1 * j.val = (t.val % 8 + 8) * 1024 + j.val; rw [e20]; omega
  | ⟨1, _⟩ => show win0_2.index t (1 : Fin 2) * 2048 + 1 * k.val = k.val; rw [e21]; omega

/-- The down projection's block at point t is columns t % 8 * 1024 … + 1023 of the down projection, all rows. -/
theorem iblk3_apply (h : Fin 2048) (j : Fin 1024) :
    (iblk m c 3 t : Vec F S2048x1024 .bf16) (ix2 h j) = (V m c main_v3 : S2048x8192.Idx → Elt F .bf16) (ix2 h (downCol t j)) := by
  obtain ⟨-, -, -, -, -, -, e30, e31, -⟩ := idx_facts t
  unfold iblk
  rw [View.read_apply]
  show V m c main_v3 _ = V m c main_v3 _
  congr 1
  funext a
  apply Fin.ext
  match a with
  | ⟨0, _⟩ => show win0_3.index t (0 : Fin 2) * 2048 + 1 * h.val = h.val; rw [e30]; omega
  | ⟨1, _⟩ => show win0_3.index t (1 : Fin 2) * 1024 + 1 * j.val = t.val % 8 * 1024 + j.val; rw [e31]; omega

/-- The result's block at point t sits at rows t / 8 * 256 … + 255 of the result, all columns. -/
theorem oblk4_emb (y : S256x2048.Idx) :
    (((cfg0.win 4).blk t).view.emb y : S8192x2048.Idx) = ix2 (actRow t (y 0)) (y 1) := by
  obtain ⟨-, -, -, -, -, -, -, -, e40, e41⟩ := idx_facts t
  funext a
  apply Fin.ext
  match a with
  | ⟨0, _⟩ => show win0_4.index t (0 : Fin 2) * 256 + 1 * (y 0).val = t.val / 8 * 256 + (y 0).val; rw [e40]; omega
  | ⟨1, _⟩ => show win0_4.index t (1 : Fin 2) * 2048 + 1 * (y 1).val = (y 1).val; rw [e41]; omega

end Cert.KernelIdeal.BlockAt

end
-- ==== Proof.HostAt.lean ====
/-
  The host lines before the kernel region, read at an index on the extended reals.

  Before the region @main reshapes the [2, 4096, 2048] activations to [8192, 2048] and narrows that array and the two
  weight arrays to the 16-bit format.  On the extended reals a narrowing conversion is the identity, and a reshape keeps
  the row-major position of every element: row `R` of the flat activations is token `(R / 4096, R % 4096)`.  So each of
  the three arrays the region reads is an argument of @main, read at the matching index.
-/
import proofs.«169472_j27951647162501_2_alg».proof.Proof.FrKI.Runs
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal

noncomputable section

namespace Cert.KernelIdeal.HostAt

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (c : Dev nD)

/-- The flat activations as the region finds them: the shape cast of the first argument (the narrowing is the identity). -/
theorem V_v1_term :
    (V (F := Ideal) m c main_v1 : S8192x2048.Idx → EReal)
      = fun i => shapeCast S8192x2048 (m ((c : Thread nD τ).loc main_arg0) : S2x4096x2048.Idx → EReal)
          shapeCasts_S2x4096x2048_S8192x2048 i := by
  dsimp only [V, V0]
  simp only [hostOps0, List.flatten_cons, List.flatten_nil, List.append_nil, List.cons_append, List.nil_append]
  after_results
  rfl

/-- The stacked weight as the region finds it: the second argument (the narrowing is the identity). -/
theorem V_v2_term :
    (V (F := Ideal) m c main_v2 : S16384x2048.Idx → EReal)
      = (m ((c : Thread nD τ).loc main_arg1) : S16384x2048.Idx → EReal) := by
  dsimp only [V, V0]
  simp only [hostOps0, List.flatten_cons, List.flatten_nil, List.append_nil, List.cons_append, List.nil_append]
  after_results
  rfl

/-- The down projection as the region finds it: the third argument (the narrowing is the identity). -/
theorem V_v3_term :
    (V (F := Ideal) m c main_v3 : S2048x8192.Idx → EReal)
      = (m ((c : Thread nD τ).loc main_arg2) : S2048x8192.Idx → EReal) := by
  dsimp only [V, V0]
  simp only [hostOps0, List.flatten_cons, List.flatten_nil, List.append_nil, List.cons_append, List.nil_append]
  after_results
  rfl

/-- Row `R` of the flat activations is token `(R / 4096, R % 4096)` of the first argument. -/
theorem V_v1_apply (R : Fin 8192) (k : Fin 2048) :
    (V (F := Ideal) m c main_v1 : S8192x2048.Idx → EReal) (ix2 R k)
      = (m ((c : Thread nD τ).loc main_arg0) : S2x4096x2048.Idx → EReal)
          (ix3 (⟨R.val / 4096, by have := R.isLt; omega⟩ : Fin 2) (⟨R.val % 4096, by omega⟩ : Fin 4096) k) := by
  rw [V_v1_term]
  refine shapeCast_apply (s := S2x4096x2048) (t := S8192x2048) _ _ _ _ ?_
  show (S2x4096x2048.rowMajor (ix3 (⟨R.val / 4096, _⟩ : Fin 2) (⟨R.val % 4096, _⟩ : Fin 4096) k)).val
    = (S8192x2048.rowMajor (ix2 R k)).val
  rw [Shape.rowMajor_val_two, Shape.rowMajor_val_three]
  show (R.val / 4096 * 4096 + R.val % 4096) * 2048 + k.val = R.val * 2048 + k.val
  have hR : R.val / 4096 * 4096 + R.val % 4096 = R.val := by omega
  rw [hR]

/-- The stacked weight at an index is the second argument there. -/
theorem V_v2_apply (n : Fin 16384) (k : Fin 2048) :
    (V (F := Ideal) m c main_v2 : S16384x2048.Idx → EReal) (ix2 n k)
      = (m ((c : Thread nD τ).loc main_arg1) : S16384x2048.Idx → EReal) (ix2 n k) := by
  rw [V_v2_term]

/-- The down projection at an index is the third argument there. -/
theorem V_v3_apply (h : Fin 2048) (n : Fin 8192) :
    (V (F := Ideal) m c main_v3 : S2048x8192.Idx → EReal) (ix2 h n)
      = (m ((c : Thread nD τ).loc main_arg2) : S2048x8192.Idx → EReal) (ix2 h n) := by
  rw [V_v3_term]

end Cert.KernelIdeal.HostAt

end
-- ==== Proof.Spec.lean ====
/-
  The function both programs compute, on the extended reals.

  For an activation array `a0 : [2, 4096, 2048]`, a stacked weight `a1 : [16384, 2048]` (rows 0..8191 the gate
  projection, rows 8192..16383 the up projection) and a down projection `a2 : [2048, 8192]`:

    gate b s n = Σ_k a0[b,s,k] · a1[n,k]            up b s n = Σ_k a0[b,s,k] · a1[8192+n,k]
    act  b s n = (gate · logistic gate) · up         (logistic x = 1 / (1 + e^(-x)))
    G    b s h = Σ_n act b s n · a2[h,n]             (n over the 8192 intermediate features)

  The kernel reaches `G` by summing `n` in eight consecutive blocks of 1024, each block's partial sum added to an
  accumulator that starts at zero; `blockSum` is one block's partial sum; that the eight partial sums add up to `Gc` is proved where the block-sum law is imported.
-/
import Idealize.ShloMosaic.PureOps.Ideal
import Idealize.ShloMosaic.Lib.ValueIdx

noncomputable section

namespace Cert.Spec

open Idealize.ShloMosaic Idealize.ShloMosaic.ValueIdx
open scoped BigOperators

/-- The three argument arrays and the result, as functions of their indices on the extended reals. -/
abbrev Act := (⟨3, ![2, 4096, 2048]⟩ : Shape).Idx → EReal
abbrev WGateUp := (⟨2, ![16384, 2048]⟩ : Shape).Idx → EReal
abbrev WDown := (⟨2, ![2048, 8192]⟩ : Shape).Idx → EReal

/-- Row `n` of the gate half of the stacked weight. -/
abbrev gateRow (n : Fin 8192) : Fin 16384 := ⟨n.val, by have := n.isLt; omega⟩
/-- Row `n` of the up half of the stacked weight. -/
abbrev upRow (n : Fin 8192) : Fin 16384 := ⟨8192 + n.val, by have := n.isLt; omega⟩

/-- The gate pre-activation of token `(b, s)` at intermediate feature `n`. -/
def gate (a0 : Act) (a1 : WGateUp) (b : Fin 2) (s : Fin 4096) (n : Fin 8192) : EReal :=
  ∑ k : Fin 2048, a0 (ix3 b s k) * a1 (ix2 (gateRow n) k)

/-- The up projection of token `(b, s)` at intermediate feature `n`. -/
def up (a0 : Act) (a1 : WGateUp) (b : Fin 2) (s : Fin 4096) (n : Fin 8192) : EReal :=
  ∑ k : Fin 2048, a0 (ix3 b s k) * a1 (ix2 (upRow n) k)

/-- The gated activation: silu of the gate times the up projection. -/
def act (a0 : Act) (a1 : WGateUp) (b : Fin 2) (s : Fin 4096) (n : Fin 8192) : EReal :=
  (gate a0 a1 b s n * Ideal.logistic (gate a0 a1 b s n)) * up a0 a1 b s n

/-- The result at token `(b, s)` and hidden feature `h`. -/
def Gc (a0 : Act) (a1 : WGateUp) (a2 : WDown) (b : Fin 2) (s : Fin 4096) (h : Fin 2048) : EReal :=
  ∑ n : Fin 8192, act a0 a1 b s n * a2 (ix2 h n)

/-- The result array. -/
def G (a0 : Act) (a1 : WGateUp) (a2 : WDown) : Act := fun i => Gc a0 a1 a2 (i 0) (i 1) (i 2)

/-- Intermediate feature `j` of block `q` (eight blocks of 1024). -/
abbrev feat (q : Fin 8) (j : Fin 1024) : Fin 8192 := ⟨q.val * 1024 + j.val, by have := q.isLt; have := j.isLt; omega⟩

/-- One block's partial sum of the result. -/
def blockSum (a0 : Act) (a1 : WGateUp) (a2 : WDown) (b : Fin 2) (s : Fin 4096) (h : Fin 2048) (q : Fin 8) : EReal :=
  ∑ j : Fin 1024, act a0 a1 b s (feat q j) * a2 (ix2 h (feat q j))

end Cert.Spec

end
-- ==== Proof.StepAt.lean ====
/-
  One accumulation step in closed form, on the extended reals.

  At grid point t the body adds to the accumulator, at row r and hidden feature h, the partial sum over the 1024
  intermediate features of block t % 8 of (gate · logistic gate · up) · down, for the token of row t / 8 * 256 + r of the
  flat activations: token (R / 4096, R % 4096) of row R. The first step of a row block adds it to zero.
-/
import proofs.«169472_j27951647162501_2_alg».proof.Proof.PayloadAt
import proofs.«169472_j27951647162501_2_alg».proof.Proof.BlockAt
import proofs.«169472_j27951647162501_2_alg».proof.Proof.HostAt
import proofs.«169472_j27951647162501_2_alg».proof.Proof.Spec

noncomputable section

namespace Cert.KernelIdeal.StepAt

open Cert.KernelIdeal Cert.KernelIdeal.Gen Cert.KernelIdeal.Fr
open Idealize.ShloMosaic Idealize.ShloMosaic.TcCoe Idealize.ShloMosaic.ValueIdx
open scoped BigOperators

variable (m : (ℓ : Loc nD τ sig) → Buf (Elt Ideal) ℓ) (c : Dev nD) (t : Fin cfg0.N)

/-- The batch coordinate of row R of the flat activations. -/
abbrev tokB (R : Fin 8192) : Fin 2 := ⟨R.val / 4096, by have := R.isLt; omega⟩
/-- The sequence coordinate of row R of the flat activations. -/
abbrev tokS (R : Fin 8192) : Fin 4096 := ⟨R.val % 4096, by omega⟩
/-- The block of intermediate features point t works on: its inner grid coordinate. -/
abbrev blockOf (t : Fin cfg0.N) : Fin 8 := ⟨t.val % 8, by omega⟩
/-- The three arguments as launched, as functions of their indices on the extended reals. -/
abbrev a0 : Cert.Spec.Act := m ((c : Thread nD τ).loc main_arg0)
abbrev a1 : Cert.Spec.WGateUp := m ((c : Thread nD τ).loc main_arg1)
abbrev a2 : Cert.Spec.WDown := m ((c : Thread nD τ).loc main_arg2)

/-- Row j of the gate block at point t is the gate row of feature j of block t % 8. -/
theorem gateRowAt_eq (j : Fin 1024) : BlockAt.gateRowAt t j = Cert.Spec.gateRow (Cert.Spec.feat (blockOf t) j) :=
  Fin.ext rfl
/-- Row j of the up block at point t is the up row of feature j of block t % 8. -/
theorem upRowAt_eq (j : Fin 1024) : BlockAt.upRowAt t j = Cert.Spec.upRow (Cert.Spec.feat (blockOf t) j) :=
  Fin.ext (by show (t.val % 8 + 8) * 1024 + j.val = 8192 + (t.val % 8 * 1024 + j.val); omega)
/-- Column j of the down projection's block at point t is feature j of block t % 8. -/
theorem downCol_eq (j : Fin 1024) : BlockAt.downCol t j = Cert.Spec.feat (blockOf t) j :=
  Fin.ext rfl

/-- The activations' block at point t, read at (r, k): the first argument at the row's token. -/
theorem x0_at (r : Fin 256) (k : Fin 2048) :
    (iblk m c 0 t : Vec Ideal S256x2048 .bf16) (ix2 r k)
      = a0 m c (ix3 (tokB (BlockAt.actRow t r)) (tokS (BlockAt.actRow t r)) k) :=
  (BlockAt.iblk0_apply m c t r k).trans (HostAt.V_v1_apply m c (BlockAt.actRow t r) k)
/-- The gate block at point t, read at (j, k): the second argument at the gate row of the block's feature j. -/
theorem x1_at (j : Fin 1024) (k : Fin 2048) :
    (iblk m c 1 t : Vec Ideal S1024x2048 .bf16) (ix2 j k)
      = a1 m c (ix2 (Cert.Spec.gateRow (Cert.Spec.feat (blockOf t) j)) k) := by
  rw [← gateRowAt_eq]
  exact (BlockAt.iblk1_apply m c t j k).trans (HostAt.V_v2_apply m c (BlockAt.gateRowAt t j) k)
/-- The up block at point t, read at (j, k): the second argument at the up row of the block's feature j. -/
theorem x2_at (j : Fin 1024) (k : Fin 2048) :
    (iblk m c 2 t : Vec Ideal S1024x2048 .bf16) (ix2 j k)
      = a1 m c (ix2 (Cert.Spec.upRow (Cert.Spec.feat (blockOf t) j)) k) := by
  rw [← upRowAt_eq]
  exact (BlockAt.iblk2_apply m c t j k).trans (HostAt.V_v2_apply m c (BlockAt.upRowAt t j) k)
/-- The down projection's block at point t, read at (h, j): the third argument at the block's feature j. -/
theorem x3_at (h : Fin 2048) (j : Fin 1024) :
    (iblk m c 3 t : Vec Ideal S2048x1024 .bf16) (ix2 h j)
      = a2 m c (ix2 h (Cert.Spec.feat (blockOf t) j)) := by
  rw [← downCol_eq]
  exact (BlockAt.iblk3_apply m c t h j).trans (HostAt.V_v3_apply m c h (BlockAt.downCol t j))

/-- One step: the accumulator plus the block's partial sum of the result. -/
theorem step_eq (prev : Vec Ideal S256x2048 .f32) (r : Fin 256) (h : Fin 2048) :
    k0_pay2 (F := Ideal) (iblk m c 0 t) (iblk m c 1 t) (iblk m c 2 t) (iblk m c 3 t) prev (ix2 r h)
      = prev (ix2 r h) + Cert.Spec.blockSum (a0 m c) (a1 m c) (a2 m c)
          (tokB (BlockAt.actRow t r)) (tokS (BlockAt.actRow t r)) h (blockOf t) := by
  refine (PayloadAt.pay2_apply (iblk m c 0 t) (iblk m c 1 t) (iblk m c 2 t) (iblk m c 3 t) prev r h).trans ?_
  refine congrArg (fun z : EReal => prev (ix2 r h) + z) ?_
  unfold Cert.Spec.blockSum Cert.Spec.act Cert.Spec.gate Cert.Spec.up
  refine Finset.sum_congr rfl fun j _ => ?_
  simp only [x0_at, x1_at, x2_at, x3_at]

/-- The first step of a row block: the accumulator was just cleared, so the block's partial sum is added to zero. -/
theorem first_eq (r : Fin 256) (h : Fin 2048) :
    k0_pay2 (F := Ideal) (iblk m c 0 t) (iblk m c 1 t) (iblk m c 2 t) (iblk m c 3 t) (k0_pay1 (F := Ideal)) (ix2 r h)
      = 0 + Cert.Spec.blockSum (a0 m c) (a1 m c) (a2 m c)
          (tokB (BlockAt.actRow t r)) (tokS (BlockAt.actRow t r)) h (blockOf t) :=
  (step_eq m c t (k0_pay1 (F := Ideal)) r h).trans
    (congrArg (fun z : EReal => z + Cert.Spec.blockSum (a0 m c) (a1 m c) (a2 m c)
      (tokB (BlockAt.actRow t r)) (tokS (BlockAt.actRow t r)) h (blockOf t)) (PayloadAt.pay1_apply r h))

end Cert.KernelIdeal.StepAt

end
-- ==== Proof.CoverAt.lean ====
/-
  The blocks the region writes back cover the result array, and a block read at an index.

  The result's window holds rows (t / 8) · 256 … + 255 and all 2048 columns at grid point t, and is written back at
  the points with t % 8 = 7.  Row R of the [8192, 2048] result lies in the block of the point (R / 256) · 8 + 7, which
  is such a point; so every index of the array is in some written-back block.  Reading an array through the block of
  point t is reading it at row (t / 8) · 256 + r, column h.
-/
import proofs.«169472_j27951647162501_2_alg».proof.Proof.BlockAt
import proofs.«169472_j27951647162501_2_alg».proof.Proof.Gen.KernelIdeal.Points
import Idealize.ShloMosaic.Lib.Pipeline.Value

noncomputable section

namespace Cert.KernelIdeal.CoverAt

open Cert.KernelIdeal Cert.KernelIdeal.Gen Cert.KernelIdeal.Fr Idealize.ShloMosaic Idealize.ShloMosaic.ValueIdx

variable {F : FTy → Type} [FloatOps F]

/-- An index of the result array is in point `t`'s block iff each coordinate is in the block's range on its axis. -/
theorem mem_blk4 (t : Fin cfg0.N) (i : S8192x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v4).slice (win0_4.rect t)).set ↔ _
  rw [View.set_slice_whole, Rect.mem_set_unit]
  exact Iff.rfl

/-- Every index of the result array is in the block of a point that writes its block back. -/
theorem cover4_idx (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : (i 0).val / 256 * 8 + 7 < cfg0.N := lt_of_lt_of_eq (by omega : (i 0).val / 256 * 8 + 7 < 256) N_0.symm
  refine ⟨⟨(i 0).val / 256 * 8 + 7, hN⟩, (flush0_4 _).mpr ?_, ?_⟩
  · show ((i 0).val / 256 * 8 + 7) % 8 = 7
    omega
  · rw [mem_blk4]
    obtain ⟨-, -, -, -, -, -, -, -, e40, e41⟩ := BlockAt.idx_facts ⟨(i 0).val / 256 * 8 + 7, hN⟩
    have e40' : win0_4.index ⟨(i 0).val / 256 * 8 + 7, hN⟩ (0 : Fin 2) = ((i 0).val / 256 * 8 + 7) / 8 := e40
    intro a
    match a with
    | ⟨0, _⟩ =>
      show win0_4.index ⟨(i 0).val / 256 * 8 + 7, hN⟩ (0 : Fin 2) * 256 ≤ (i 0).val
        ∧ (i 0).val < win0_4.index ⟨(i 0).val / 256 * 8 + 7, hN⟩ (0 : Fin 2) * 256 + 256
      rw [e40']
      omega
    | ⟨1, _⟩ =>
      show win0_4.index ⟨(i 0).val / 256 * 8 + 7, hN⟩ (1 : Fin 2) * 2048 ≤ (i 1).val
        ∧ (i 1).val < win0_4.index ⟨(i 0).val / 256 * 8 + 7, hN⟩ (1 : Fin 2) * 2048 + 2048
      rw [e41]
      omega

/-- The same, over the index type of the window's array as the pipeline states it. -/
theorem cover4 (c : Dev nD) : ∀ i : (((cfg0.win 4).arr.view.loc (c.tc : Thread nD τ)).2.ty.Idx),
    ∃ t : Fin cfg0.N, (cfg0.win 4).flush t = true ∧ i ∈ ((cfg0.win 4).blk t).view.set :=
  fun i => cover4_idx i

/-- An array read through point `t`'s block, at row `r` and column `h` of the block. -/
theorem read_blk4 (c : Dev nD) (G : S8192x2048.Idx → Elt F .f32) (t : Fin cfg0.N) (r : Fin 256) (h : Fin 2048) :
    (((cfg0.win 4).blk t).view.read (Elt F) (G : Buf (Elt F) ((cfg0.win 4).arr.view.loc (c.tc : Thread nD τ)))
        : S256x2048.Idx → Elt F .f32) (ix2 r h)
      = G (ix2 (BlockAt.actRow t r) h) := by
  rw [View.read_apply]
  exact congrArg G (BlockAt.oblk4_emb t (ix2 r h))

end Cert.KernelIdeal.CoverAt

end
-- ==== Proof.TailAt.lean ====
/-
  The host line after the kernel region, read at an index.

  The line reshapes the [8192, 2048] result of the region to [2, 4096, 2048].  A reshape keeps the row-major position of
  every element, so element (b, s, h) of the reshaped array is element (b · 4096 + s, h) of the flat one; the line writes
  that one array and leaves the three arguments as they were.  Nothing here depends on the number format.
-/
import proofs.«169472_j27951647162501_2_alg».proof.Proof.Gen.KernelIdeal.Launch
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.TailAt

open Cert.KernelIdeal Cert.KernelIdeal.Gen
open Idealize.ShloMosaic Idealize.ShloMosaic.TcCoe Idealize.ShloMosaic.ValueIdx
open Idealize.SL.Sem

variable {F : FTy → Type} [FloatOps F]

/-- The reshaped array as a whole: the shape cast of the flat result. -/
theorem tail_term (W : Valuation τ sig (Elt F)) :
    (StableHlo.after (List.flatten [hostOps1]) W (Proc.devRef .tc main_v5) : S2x4096x2048.Idx → Elt F .f32)
      = fun i => shapeCast S2x4096x2048 (W (Proc.devRef .tc main_v4) : S8192x2048.Idx → Elt F .f32)
          shapeCasts_S8192x2048_S2x4096x2048 i := by
  simp only [List.flatten_cons, List.flatten_nil, List.append_nil, hostOps1]
  after_results
  rfl

/-- Element `(b, s, h)` of the reshaped array is element `(b · 4096 + s, h)` of the flat result. -/
theorem tail_apply (W : Valuation τ sig (Elt F)) (b : Fin 2) (s : Fin 4096) (h : Fin 2048) :
    (StableHlo.after (List.flatten [hostOps1]) W (Proc.devRef .tc main_v5) : S2x4096x2048.Idx → Elt F .f32) (ix3 b s h)
      = (W (Proc.devRef .tc main_v4) : S8192x2048.Idx → Elt F .f32)
          (ix2 (⟨b.val * 4096 + s.val, by have := b.isLt; have := s.isLt; omega⟩ : Fin 8192) h) := by
  rw [tail_term]
  refine shapeCast_apply (s := S8192x2048) (t := S2x4096x2048) _ _ _ _ ?_
  show (S8192x2048.rowMajor (ix2 (⟨b.val * 4096 + s.val, _⟩ : Fin 8192) h)).val = (S2x4096x2048.rowMajor (ix3 b s h)).val
  rw [Shape.rowMajor_val_two, Shape.rowMajor_val_three]
  show (b.val * 4096 + s.val) * 2048 + h.val = (b.val * 4096 + s.val) * 2048 + h.val
  rfl

/-- The line does not write the first argument. -/
theorem tail_arg0 (W : Valuation τ sig (Elt F)) :
    StableHlo.after (List.flatten [hostOps1]) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.Forall,
      StableHlo.reshape_writes, Finset.mem_singleton]
    exact StableHlo.devRef_ne_of_ne (by decide)))

/-- The line does not write the second argument. -/
theorem tail_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.Forall,
      StableHlo.reshape_writes, Finset.mem_singleton]
    exact StableHlo.devRef_ne_of_ne (by decide)))

/-- The line does not write the third argument. -/
theorem tail_arg2 (W : Valuation τ sig (Elt F)) :
    StableHlo.after (List.flatten [hostOps1]) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.Forall,
      StableHlo.reshape_writes, Finset.mem_singleton]
    exact StableHlo.devRef_ne_of_ne (by decide)))

end Cert.KernelIdeal.TailAt

end
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.Regroup.lean ====
/-
  The result's sum over the 8192 intermediate features, regrouped into eight consecutive blocks of 1024.

  Feature `n = q · 1024 + j` is offset `j` of block `q`; the long sum is the sum over the blocks of the sums inside
  each block.  Only commutativity and associativity of addition on the extended reals are used.
-/
import proofs.«169472_j27951647162501_2_alg».proof.Proof.Spec
import proofs.«169472_j27951647162501_2_alg».proof.Proof.LibBlockSum

noncomputable section

namespace Cert.Spec

open Idealize.ShloMosaic Idealize.ShloMosaic.ValueIdx
open scoped BigOperators

/-- Offset `j` of block `q` in the long sum is feature `feat q j`. -/
theorem block_index_eq_feat (q : Fin 8) (j : Fin 1024) :
    (finProdFinEquiv (q, j) : Fin (8 * 1024)) = feat q j := by
  apply Fin.ext
  rw [Cert.BlockSum.block_index_val]
  show j.val + 1024 * q.val = q.val * 1024 + j.val
  omega

/-- The result at one index is the sum of its eight block sums. -/
theorem Gc_eq_blocks (a0 : Act) (a1 : WGateUp) (a2 : WDown) (b : Fin 2) (s : Fin 4096) (h : Fin 2048) :
    Gc a0 a1 a2 b s h = ∑ q : Fin 8, blockSum a0 a1 a2 b s h q := by
  have key := Cert.BlockSum.sum_blocks (M := EReal) 8 1024
    (fun n : Fin 8192 => act a0 a1 b s n * a2 (ix2 h n))
  refine Eq.trans key ?_
  refine Finset.sum_congr rfl fun q _ => ?_
  unfold blockSum
  refine Finset.sum_congr rfl fun j _ => ?_
  rw [block_index_eq_feat]

end Cert.Spec

end
-- ==== Proof.KValue.lean ====
/-
  The idealized kernel's result is the specification `G`.

  Fix a row block (outer grid coordinate) and a row `r` of it; let `R` be the flat token index of that row. After the
  point with inner coordinate `q` the accumulator holds, at (r, h), the sum of the partial sums of blocks 0 … q of
  G's sum over the intermediate features: the point with inner coordinate 0 starts from the zero payload, every later
  point adds its block's partial sum to what the point before left (addition on the extended reals is associative and
  commutative, so no finiteness is needed). At inner coordinate 7 the result's block receives the accumulator: all eight
  blocks, which is G's whole sum regrouped. The written-back blocks tile the [8192, 2048] array, and the host line after
  the region reshapes it to [2, 4096, 2048].
-/
import proofs.«169472_j27951647162501_2_alg».proof.Proof.FrKI.Pieces
import proofs.«169472_j27951647162501_2_alg».proof.Proof.FrKI.RunMain
import proofs.«169472_j27951647162501_2_alg».proof.Proof.StepAt
import proofs.«169472_j27951647162501_2_alg».proof.Proof.CoverAt
import proofs.«169472_j27951647162501_2_alg».proof.Proof.TailAt
import proofs.«169472_j27951647162501_2_alg».proof.Proof.Regroup

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.KernelIdeal.StepAt Cert.KernelIdeal.BlockAt
open scoped BigOperators

variable (m : (ℓ : Loc nD τ sig) → Buf (Elt Ideal) ℓ) (c : Dev nD)

/-- Block `q`'s partial sum for row `r` of the row block of point `t`, zero past the eighth block. -/
def bs (t : Fin cfg0.N) (r : Fin 256) (h : Fin 2048) (q : ℕ) : EReal :=
  if hq : q < 8 then Cert.Spec.blockSum (a0 m c) (a1 m c) (a2 m c) (tokB (actRow t r)) (tokS (actRow t r)) h ⟨q, hq⟩ else 0

/-- The partial sums depend on the point only through its row block. -/
theorem bs_congr (t t' : Fin cfg0.N) (e : t.val / 8 = t'.val / 8) (r : Fin 256) (h : Fin 2048) (q : ℕ) :
    bs m c t r h q = bs m c t' r h q := by
  have : actRow t r = actRow t' r := Fin.ext (by show t.val / 8 * 256 + r.val = t'.val / 8 * 256 + r.val; rw [e])
  unfold bs; rw [this]

theorem bs_blockOf (t : Fin cfg0.N) (r : Fin 256) (h : Fin 2048) :
    Cert.Spec.blockSum (a0 m c) (a1 m c) (a2 m c) (tokB (actRow t r)) (tokS (actRow t r)) h (blockOf t) = bs m c t r h (t.val % 8) := by
  unfold bs; rw [dif_pos (by omega : t.val % 8 < 8)]

/-- Where the inner coordinate is 0 the accumulator holds the first block's partial sum (added to zero). -/
theorem acc_first (t : Fin cfg0.N) (h0 : t.val % 8 = 0) (r : Fin 256) (h : Fin 2048) :
    (outsAt0 m c t.val t.isLt).2 (ix2 r h) = 0 + bs m c t r h (t.val % 8) := by
  have h1 : ¬t.val % 8 = 7 := by omega
  have e1 := congrArg Prod.snd (outsAt0_A m c t h0 h1)
  dsimp only at e1
  rw [sout0_A_eq] at e1
  exact (congrFun e1 (ix2 r h)).trans ((first_eq m c t r h).trans (congrArg (fun z : EReal => 0 + z) (bs_blockOf m c t r h)))

/-- Elsewhere it holds what the point before left plus this point's block. -/
theorem acc_next (t : Fin cfg0.N) (h0 : ¬t.val % 8 = 0) (r : Fin 256) (h : Fin 2048) :
    (outsAt0 m c t.val t.isLt).2 (ix2 r h)
      = (outsAt0 m c (t.val - 1) (Nat.lt_of_le_of_lt (Nat.sub_le _ _) t.isLt)).2 (ix2 r h) + bs m c t r h (t.val % 8) := by
  by_cases h1 : t.val % 8 = 7
  · have e1 := congrArg Prod.snd (outsAt0_C m c t h0 h1)
    dsimp only at e1
    rw [sout0_C_eq] at e1
    exact (congrFun e1 (ix2 r h)).trans ((step_eq m c t _ r h).trans
      (congrArg (fun z : EReal => (outsAt0 m c (t.val - 1) (Nat.lt_of_le_of_lt (Nat.sub_le _ _) t.isLt)).2 (ix2 r h) + z) (bs_blockOf m c t r h)))
  · have e1 := congrArg Prod.snd (outsAt0_B m c t h0 h1)
    dsimp only at e1
    rw [sout0_B_eq] at e1
    exact (congrFun e1 (ix2 r h)).trans ((step_eq m c t _ r h).trans
      (congrArg (fun z : EReal => (outsAt0 m c (t.val - 1) (Nat.lt_of_le_of_lt (Nat.sub_le _ _) t.isLt)).2 (ix2 r h) + z) (bs_blockOf m c t r h)))

/-- Where the inner coordinate is 7 the result's block is the accumulator. -/
theorem out_last (t : Fin cfg0.N) (h1 : t.val % 8 = 7) :
    (outsAt0 m c t.val t.isLt).1 = (outsAt0 m c t.val t.isLt).2 := by
  have h0 : ¬t.val % 8 = 0 := by omega
  have e1 := congrArg Prod.fst (outsAt0_C m c t h0 h1)
  dsimp only at e1
  rw [out0_C_eq] at e1
  have e2 := congrArg Prod.snd (outsAt0_C m c t h0 h1)
  dsimp only at e2
  rw [sout0_C_eq] at e2
  exact e1.trans e2.symm

/-- THE ACCUMULATOR IN CLOSED FORM: after the point with inner coordinate `q`, blocks 0 … q summed. -/
theorem acc_closed : ∀ (n : ℕ) (hn : n < cfg0.N) (r : Fin 256) (h : Fin 2048),
    (outsAt0 m c n hn).2 (ix2 r h) = ∑ q ∈ Finset.range (n % 8 + 1), bs m c ⟨n, hn⟩ r h q := by
  intro n
  induction n with
  | zero =>
    intro hn r h
    have e := acc_first m c ⟨0, hn⟩ (Nat.zero_mod 8) r h
    rw [show (outsAt0 m c 0 hn).2 (ix2 r h) = _ from e]
    simp only [Nat.zero_mod, Finset.range_one, Finset.sum_singleton, zero_add]
  | succ n ih =>
    intro hn r h
    by_cases h0 : (n + 1) % 8 = 0
    · have e := acc_first m c ⟨n + 1, hn⟩ h0 r h
      rw [show (outsAt0 m c (n + 1) hn).2 (ix2 r h) = _ from e]
      show 0 + bs m c ⟨n + 1, hn⟩ r h ((n + 1) % 8) = _
      rw [h0]
      simp only [Finset.range_one, Finset.sum_singleton, zero_add]
    · have e := acc_next m c ⟨n + 1, hn⟩ h0 r h
      rw [show (outsAt0 m c (n + 1) hn).2 (ix2 r h) = _ from e]
      show (outsAt0 m c n _).2 (ix2 r h) + bs m c ⟨n + 1, hn⟩ r h ((n + 1) % 8) = _
      rw [ih (Nat.lt_of_succ_lt hn) r h]
      have hmod : (n + 1) % 8 = n % 8 + 1 := by omega
      rw [hmod, Finset.sum_range_succ (fun q => bs m c ⟨n + 1, hn⟩ r h q) (n % 8 + 1)]
      congr 1
      exact Finset.sum_congr rfl fun q _ => bs_congr m c _ _ (by show n / 8 = (n + 1) / 8; omega) r h q

/-- The result array [8192, 2048], flat token index first. -/
def Gflat : S8192x2048.Idx → EReal := fun i =>
  Cert.Spec.Gc (a0 m c) (a1 m c) (a2 m c) (tokB (i 0)) (tokS (i 0)) (i 1)

/-- Eight blocks are G's whole sum. -/
theorem sum_bs (t : Fin cfg0.N) (r : Fin 256) (h : Fin 2048) :
    ∑ q ∈ Finset.range 8, bs m c t r h q = Cert.Spec.Gc (a0 m c) (a1 m c) (a2 m c) (tokB (actRow t r)) (tokS (actRow t r)) h := by
  rw [Cert.Spec.Gc_eq_blocks, Finset.sum_range]
  exact Finset.sum_congr rfl fun q _ => by unfold bs; rw [dif_pos q.isLt]

/-- What a writing point writes back is its block of `Gflat`. -/
theorem flushed_eq (t : Fin cfg0.N) (h1 : t.val % 8 = 7) :
    (dats m 0 c).flushed 4 t = ((cfg0.win 4).blk t).view.read (Elt Ideal) (Gflat m c) := by
  show (cfg0.win 4).cut (grid0.coords t) ((dats m 0 c).after 4 t) = _
  rw [after0_4, out_last m c t h1]
  funext y
  obtain ⟨r, h, rfl⟩ : ∃ (r : Fin 256) (h : Fin 2048), y = ix2 r h := ⟨y 0, y 1, eq_ix2 y⟩
  refine Eq.trans ?_ (Cert.KernelIdeal.CoverAt.read_blk4 (F := Ideal) c (Gflat m c) t r h).symm
  show (outsAt0 m c t.val t.isLt).2 (ix2 r h) = Gflat m c (ix2 (actRow t r) h)
  rw [acc_closed m c t.val t.isLt r h, h1]
  exact sum_bs m c t r h

/-- THE RESULT ARRAY after the region is `Gflat`. -/
theorem arrAt_final : (dats m 0 c).arrAt 4 cfg0.N = Gflat m c :=
  (dats m 0 c).arrAt_eq_of_cover 4 (Gflat m c) (fun t hf => flushed_eq m c t ((flush0_4 t).mp hf)) (Cert.KernelIdeal.CoverAt.cover4 c)

/-- THE FINAL RESULT, after the reshape to [2, 4096, 2048], is the specification. -/
theorem result_eq :
    StableHlo.after (List.flatten [hostOps1]) (W0 m c) (Proc.devRef .tc main_v5) = Cert.Spec.G (a0 m c) (a1 m c) (a2 m c) := by
  funext i
  obtain ⟨b, s, h, rfl⟩ : ∃ (b : Fin 2) (s : Fin 4096) (h : Fin 2048), i = ix3 b s h := ⟨i 0, i 1, i 2, eq_ix3 i⟩
  refine (Cert.KernelIdeal.TailAt.tail_apply (W0 m c) b s h).trans ?_
  rw [W0_v4, arrAt_final]
  show Cert.Spec.Gc (a0 m c) (a1 m c) (a2 m c) (tokB _) (tokS _) h = Cert.Spec.Gc (a0 m c) (a1 m c) (a2 m c) b s h
  have hb : tokB (⟨b.val * 4096 + s.val, by have := b.isLt; have := s.isLt; omega⟩ : Fin 8192) = b :=
    Fin.ext (by show (b.val * 4096 + s.val) / 4096 = b.val; have := s.isLt; omega)
  have hs : tokS (⟨b.val * 4096 + s.val, by have := b.isLt; have := s.isLt; omega⟩ : Fin 8192) = s :=
    Fin.ext (by show (b.val * 4096 + s.val) % 4096 = s.val; have := s.isLt; omega)
  rw [hb, hs]

end Cert.KernelIdeal.KValue

end
-- ==== Proof.RefValue.lean ====
/-
  The reference program's result is the function `G` of the specification.

  The reference computes one product of the activations with the stacked weight, slices its last axis into the gate
  half (columns 0..8191) and the up half (columns 8192..16383), forms  gate · (1 / (1 + e^(-gate)))  and multiplies by
  the up half, and contracts the result with the down projection.  Read index by index: the two slices are the sums
  `gate` and `up`, the negate / exponential / add / divide chain with the constant 1 is the logistic function by its
  definition, and the last contraction is the sum over the 8192 intermediate features.
-/
import proofs.«169472_j27951647162501_2_alg».proof.Proof.Gen.ReferenceIdeal.Read
import proofs.«169472_j27951647162501_2_alg».proof.Proof.Spec

noncomputable section

namespace Cert.RefValue

open Cert.ReferenceIdeal Cert.ReferenceIdeal.Read Cert.Spec
open Idealize.ShloMosaic Idealize.ShloMosaic.ValueIdx
open scoped BigOperators

/-- The single-precision pattern `0x3F800000` denotes the number one. -/
theorem ofBits_one : FloatOps.ofBits (F := Ideal) .f32 0x3F800000#32 = (1 : EReal) := by
  rw [Ideal.ofBits_def]
  simp [Ideal.ofBits, Ideal.ieee, -EReal.coe_mul]
  norm_num

variable (x0 : (⟨S2x4096x2048, .f32⟩ : BufTy).Contents (Elt Ideal))
  (x1 : (⟨S16384x2048, .f32⟩ : BufTy).Contents (Elt Ideal))
  (x2 : (⟨S2048x8192, .f32⟩ : BufTy).Contents (Elt Ideal))

/-- The gate half of the first product, at an index. -/
theorem v1_eq (i : S2x4096x8192.Idx) :
    val_main_v1 (F := Ideal) x0 x1 i = gate x0 x1 (i 0) (i 1) (i 2) := by
  rw [val_main_v1_apply, val_main_v0_apply]
  unfold gate
  refine Finset.sum_congr rfl fun k _ => ?_
  have hl : lidx_main_v0 (idx_main_v1 i) k = ix3 (i 0) (i 1) k := by
    funext a
    match a with
    | ⟨0, _⟩ => rfl
    | ⟨1, _⟩ => rfl
    | ⟨2, _⟩ => rfl
  have hr : ridx_main_v0 (idx_main_v1 i) k = ix2 (gateRow (i 2)) k := by
    funext a
    match a with
    | ⟨0, _⟩ => rfl
    | ⟨1, _⟩ => rfl
  rw [hl, hr]
  rfl

/-- The up half of the first product, at an index. -/
theorem v2_eq (i : S2x4096x8192.Idx) :
    val_main_v2 (F := Ideal) x0 x1 i = up x0 x1 (i 0) (i 1) (i 2) := by
  rw [val_main_v2_apply, val_main_v0_apply]
  unfold up
  refine Finset.sum_congr rfl fun k _ => ?_
  have hl : lidx_main_v0 (idx_main_v2 i) k = ix3 (i 0) (i 1) k := by
    funext a
    match a with
    | ⟨0, _⟩ => rfl
    | ⟨1, _⟩ => rfl
    | ⟨2, _⟩ => rfl
  have hr : ridx_main_v0 (idx_main_v2 i) k = ix2 (upRow (i 2)) k := by
    funext a
    match a with
    | ⟨0, _⟩ => rfl
    | ⟨1, _⟩ => rfl
  rw [hl, hr]
  rfl

/-- The chain  1 / (1 + e^(-gate))  is the logistic function of the gate. -/
theorem call0_v5_eq (i : S2x4096x8192.Idx) :
    val_main_call0_v5 (F := Ideal) x0 x1 i = Ideal.logistic (gate x0 x1 (i 0) (i 1) (i 2)) := by
  rw [val_main_call0_v5_apply, val_main_call0_v4_apply, val_main_call0_cst_0_apply, val_main_call0_v3_apply,
    val_main_call0_v2_apply, val_main_call0_cst_apply, val_main_call0_v1_apply, val_main_call0_v0_apply,
    v1_eq, ofBits_one]
  rfl

/-- The gated activation, at an index. -/
theorem v4_eq (i : S2x4096x8192.Idx) :
    val_main_v4 (F := Ideal) x0 x1 i = act x0 x1 (i 0) (i 1) (i 2) := by
  rw [val_main_v4_apply, val_main_v3_apply, call0_v5_eq, v1_eq, v2_eq]
  rfl

/-- The reference's result is `G`. -/
theorem ref_eq_G :
    Cert.ReferenceIdeal.Read.val_main_v5 (F := Ideal) x0 x1 x2 = Cert.Spec.G x0 x1 x2 := by
  funext i
  rw [val_main_v5_apply]
  show _ = Gc x0 x1 x2 (i 0) (i 1) (i 2)
  unfold Gc
  refine Finset.sum_congr rfl fun k _ => ?_
  have hr : ridx_main_v5 i k = ix2 (i 2) k := by
    funext a
    match a with
    | ⟨0, _⟩ => rfl
    | ⟨1, _⟩ => rfl
  rw [v4_eq, hr]
  rfl

end Cert.RefValue

end
-- ==== Proof.lean ====
/-
  A gated feed-forward block, one kernel against its plain reference, on the extended reals.

  For activations a0 : [2, 4096, 2048], a stacked weight a1 : [16384, 2048] (gate rows, then up rows) and a down
  projection a2 : [2048, 8192], both programs compute

      G[b, s, h] = Σ_n ( g · logistic g · u ) · a2[h, n],   g = Σ_k a0[b,s,k] · a1[n,k],   u = Σ_k a0[b,s,k] · a1[8192+n,k].

  The reference is two dot_generals around a slice and the gate, its logistic spelt 1 / (1 + e^(-g)), which is the
  logistic function on every extended real. The kernel flattens the tokens to 8192 rows, narrows the three arrays (the
  identity at the ideal values), and runs a 32 x 8 grid: a row block of 256 tokens against eight blocks of 1024
  intermediate features, the gate rows and the up rows read through two windows on the ONE stacked array. An accumulator
  is cleared at the first block of each row block, receives each block's partial sum, and is copied to the result at the
  eighth. So the kernel's sum over n is the reference's, grouped into eight consecutive blocks and started from zero: the
  two agree by associativity and commutativity of addition alone, which hold on the extended reals with the infinities,
  so the precondition (finite inputs) is never opened.

  The three frames: the reference's is its run with the result dropped; the kernel's, at the word level and at the
  ideal values, is one proof at any float instance — the body run once per control case, the accumulator carried by
  the region's invariant, the stacked array's buffer split between its two windows at the region's entry and joined at
  its exit. The ideal pass rewrote nothing, so the idealization claim is trivial.
-/
import proofs.«169472_j27951647162501_2_alg».proof.Defs
import proofs.«169472_j27951647162501_2_alg».proof.Proof.Gen.Kernel
import proofs.«169472_j27951647162501_2_alg».proof.Proof.Gen.KernelIdeal
import proofs.«169472_j27951647162501_2_alg».proof.Proof.Gen.ReferenceIdeal
import proofs.«169472_j27951647162501_2_alg».proof.Proof.Gen.ReferenceIdeal.Run
import proofs.«169472_j27951647162501_2_alg».proof.Proof.Gen.ReferenceIdeal.Read
import proofs.«169472_j27951647162501_2_alg».proof.Proof.Gen.Pre_finite_inputs
import proofs.«169472_j27951647162501_2_alg».proof.Proof.FrK.RunMain
import proofs.«169472_j27951647162501_2_alg».proof.Proof.FrKI.RunMain
import proofs.«169472_j27951647162501_2_alg».proof.Proof.KValue
import proofs.«169472_j27951647162501_2_alg».proof.Proof.RefValue
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_kernel : Cert.frame_Kernel := fun m ρ _ => Cert.Kernel.Fr.frame (F := Bits) m ρ

/-- The same at the ideal values. -/
theorem frame_kernelIdeal : Cert.frame_KernelIdeal := fun m ρ _ => Cert.KernelIdeal.Fr.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at `G` of the arguments. -/
theorem algebraic : Cert.algebraic_KernelIdeal_ReferenceIdeal := by
  intro m ρ m' ρ' _ hagree
  refine ⟨fun c => Cert.Spec.G (Cert.KernelIdeal.StepAt.a0 m c) (Cert.KernelIdeal.StepAt.a1 m c) (Cert.KernelIdeal.StepAt.a2 m c), ?_, ?_⟩
  · exact (θ_run Cert.KernelIdeal.defs _ _).mono
      (fun _ h c => ⟨(h c).1.trans (Cert.KernelIdeal.KValue.result_eq m c), (h c).2⟩)
      (Cert.KernelIdeal.Fr.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.RefValue.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
